-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x128 .f32) (main_arg3 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S200x10000 : Shape := ⟨2, ![200, 10000]⟩
abbrev S400x128 : Shape := ⟨2, ![400, 128]⟩
abbrev S200x128 : Shape := ⟨2, ![200, 128]⟩

abbrev nBuf : Space → Nat
  | .hbm => 6
  | .vmem => 10
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S1x128, .f32⟩
  | .hbm, ⟨5, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S1x128, .f32⟩
  | .local _ .vmem, ⟨3, _⟩ => ⟨S200x10000, .f32⟩
  | .local _ .vmem, ⟨4, _⟩ => ⟨S200x10000, .f32⟩
  | .local _ .vmem, ⟨5, _⟩ => ⟨S200x10000, .f32⟩
  | .local _ .vmem, ⟨6, _⟩ => ⟨S200x10000, .f32⟩
  | .local _ .vmem, ⟨7, _⟩ => ⟨S400x128, .f32⟩
  | .local _ .vmem, ⟨8, _⟩ => ⟨S400x128, .f32⟩
  | .local _ .vmem, ⟨9, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S200x10000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S200x10000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S400x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  shapeCasts_S10000x128_S10000x128 : S10000x128.ShapeCasts S10000x128
  inb_S200x10000_S200x10000_0_0 : ∀ a, (![0, 0] : Fin 2 → Nat) a + S200x10000.size a ≤ S200x10000.size a
  h_S200x10000 : 0 < S200x10000.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S200x128 : S1x128.Broadcasts S200x128
  inb_S400x128_S200x128_0_0 : ∀ a, (![0, 0] : Fin 2 → Nat) a + S200x128.size a ≤ S400x128.size a
  h_S200x128 : 0 < S200x128.numel
  inb_S400x128_S200x128_200_0 : ∀ a, (![200, 0] : Fin 2 → Nat) a + S200x128.size a ≤ S400x128.size a
  dot_S10000x128_S128x128_S10000x128_1_0_0_1_n_n_wf : DotDims.WF S10000x128 S128x128 S10000x128 [1] [0] [0] [1] [] []
  dot_S200x10000_S10000x128_S200x128_1_0_0_1_n_n_wf : DotDims.WF S200x10000 S10000x128 S200x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S200x10000.size a ≤ S10000x10000.size a
  hwx0_3 : ∀ i : grid0.Coords, EltTy.bits .f32 = 32 ∨ (Rect.block (s := S10000x10000) S200x10000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S200x10000.size a ≤ S10000x10000.size a
  hwx0_4 : ∀ i : grid0.Coords, EltTy.bits .f32 = 32 ∨ (Rect.block (s := S10000x10000) S200x10000.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x128.size a ≤ S10000x128.size a
  hwx0_5 : ∀ i : grid0.Coords, EltTy.bits .f32 = 32 ∨ (Rect.block (s := S10000x128) S400x128.size (cc0_transform_5 i) (hinb0_5 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S200x10000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S200x10000.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S400x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩

abbrev nBuf : Space → Nat
  | .hbm => 10
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S10000x128, .f32⟩
  | .hbm, ⟨6, _⟩ => ⟨S10000x128, .f32⟩
  | .hbm, ⟨7, _⟩ => ⟨S1x128, .f32⟩
  | .hbm, ⟨8, _⟩ => ⟨S10000x128, .f32⟩
  | .hbm, ⟨9, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.FrameBaseKernelIdeal.lean ====
/-
  The graph-convolution kernel's frame, first part: the program up to its one region, and what the region's body is
  handed at each of the 25 grid points.

  The program reshapes the bias to a one-row matrix and then runs the region. The region's six windows: the node
  features X (whole, fetched once), the weights W (whole, fetched once), the bias row (whole, fetched once), two windows
  on the SAME adjacency array (rows 400 t … 400 t + 199 and rows 400 t + 200 … 400 t + 399 at point t, each fetched at
  every point), and the result (rows 400 t … 400 t + 399, written back at every point). The body keeps the product
  X · Wᵀ in a scratch buffer: it computes it at point 0 (the one branch of the body, taken exactly there) and reads it
  at every point.
-/
import proofs.«162349_g5188320494189_cont_8to1_c_158_11_alg».proof.Proof.Gen.KernelIdeal.Launch
import proofs.«162349_g5188320494189_cont_8to1_c_158_11_alg».proof.Proof.Gen.KernelIdeal.Skeleton
import proofs.«162349_g5188320494189_cont_8to1_c_158_11_alg».proof.Proof.Gen.KernelIdeal.Points
import Idealize.ShloMosaic.Lib.Pipeline.FrameBody
import Idealize.ShloMosaic.Lib.Ring
import Idealize.ShloMosaic.Lib.Tactic

-- membership in a rectangle of these extents is decided structurally, one step per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- Core `c`'s buffers when the region is entered: after the reshape of the bias. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is the reshape and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The one host operation before the region writes the reshaped bias only: the region finds `main_arg0` as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The one host operation before the region writes the reshaped bias only: the region finds `main_arg1` as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The one host operation before the region writes the reshaped bias only: the region finds `main_arg2` as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The one host operation before the region writes the reshaped bias only: the region finds `main_arg3` as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not: when it is not
    fetched its block index has not moved, and the body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not: when it is not
    fetched its block index has not moved, and the body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not: when it is not
    fetched its block index has not moved, and the body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not: when it is not
    fetched its block index has not moved, and the body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not: when it is not
    fetched its block index has not moved, and the body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's one branch -/

/-- The branch's condition from the grid coordinate: the point is the first. -/
abbrev cond0_0 (i : grid0.Coords) : Prop := (Scalar.cmpi .ne (Scalar.extui (Scalar.cmpi .eq (BitVec.ofNat 32 (i 0).val) 0#32)) 0#32) = 1#1
/-- It holds at point 0 only. -/
theorem hcond0_0 : ∀ t : Fin cfg0.N, cond0_0 (grid0.coords t) ↔ t.val = 0 :=
  (by decide +kernel : ∀ t : Fin grid0.N, cond0_0 (grid0.coords t) ↔ t.val = 0)

/-! ## No window is ever idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel

/-! ## The staging memrefs at a point, and the scratch -/

/-- One staging buffer of the result window, through which its contents are stated (the choice does not matter). -/
abbrev VO0_5 : View sig .tc .vmem S400x128 .f32 := (Memref.whole cc0_stg5_0 : Memref sig .tc .vmem S400x128 .f32).view
abbrev ms0_0 (t : Fin cfg0.N) : Memref sig .tc .vmem S10000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S200x10000 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S200x10000 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S400x128 .f32 := win0_5.stage (cfg0.slots t 5)
abbrev hs0_5 (t : Fin cfg0.N) : (ms0_5 t).IsWhole := hstage0_5 ((cfg0.slots t 5).cast nbuf0_5)
/-- The scratch: a whole scoped buffer of the kernel's own, passed beside the windows. -/
abbrev scM0_0 : Memref sig .tc .vmem S10000x128 .f32 := Memref.whole cc0_scratch0
/-- The scratch as a view: what it holds is stated through it. -/
abbrev VS0_0 : View sig .tc .vmem S10000x128 .f32 := scM0_0.view

/-- The core's scoped buffers that are no staging buffer are the scratch alone, owned at some contents. -/
theorem scratch_eq (c : Dev nD) :
    (Pipeline.scopedRest (Ix := Unit) (Name := ℕ) (U := UR sig nD τ) (Lvl := ℕ) (Val := Elt F) spec0 c : sProp 𝕄)
      = iprop((∃ d, owns (c : Thread nD τ) scM0_0 fullShare d)) := by
  rw [scopedRest0_eq]; simp only [scM0_0, owns_whole]; try rfl

end Cert.KernelIdeal.Hand

end
-- ==== Proof.FrameRunFirstKernelIdeal.lean ====
/-
  The region's body at the first grid point, run on any whole staging memrefs: the inputs' at their contents, the
  result's and the scratch at anything. The branch is taken: the product X · Wᵀ is stored into the scratch, read back
  from it twice, and the two halves of the result block are stored. What the stores leave in the result's buffer and in
  the scratch is named by the lists of pieces the run finds.
-/
import proofs.«162349_g5188320494189_cont_8to1_c_158_11_alg».proof.Proof.FrameBaseKernelIdeal

-- membership in a rectangle of these extents is decided structurally, one step per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at the first point: the pieces its stores leave in the result's staging buffer and in the scratch, with
    the proof that it runs from the inputs at their contents, the result's buffer and the scratch at anything, to the
    continuation holding the inputs as they were and those two buffers with the pieces written. -/
noncomputable def kernelRun0_A (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S400x128 .f32) (harg6 : arg6.IsWhole) (arg7 : Memref sig .tc .vmem S10000x128 .f32) (harg7 : arg7.IsWhole) (hc0 : cond0_0 i)
    (x0 : Vec F S10000x128 .f32) (x1 : Vec F S128x128 .f32) (x2 : Vec F S1x128 .f32) (x3 : Vec F S200x10000 .f32) (x4 : Vec F S200x10000 .f32) :
    Σ' (L5 : List (View.Piece (Elt F) S400x128 .f32)), { LS0 : List (View.Piece (Elt F) S10000x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0)) -∗ K ⟨⟩))
          ⊢ wp frame (wpE (defs₀ (F := F)) Variants.none c none) E (cc0__gcn_step i arg1 harg1 arg2 harg2 arg3 harg3 arg4 harg4 arg5 harg5 arg6 harg6 arg7 harg7) K } := by
  refine ⟨?_, ?_, fun E K => ?run⟩
  case run =>
    simp only [cc0__gcn_step_eq_skeleton]; unfold cc0__gcn_step_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, Hk⟩
    obtain rfl := harg1.eq_unread hf0; obtain rfl := harg2.eq_unread hf1; obtain rfl := harg3.eq_unread hf2
    obtain rfl := harg4.eq_unread hf3; obtain rfl := harg5.eq_unread hf4
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact HS0

end Cert.KernelIdeal.Hand

end
-- ==== Proof.FrameRunLaterKernelIdeal.lean ====
/-
  The region's body at a grid point after the first, run on any whole staging memrefs: the inputs' at their contents,
  the result's at anything, the scratch at the contents the earlier points left (it is only read). The branch is not
  taken; the two halves of the result block are stored. What the stores leave in the result's buffer is named by the
  list of pieces the run finds.
-/
import proofs.«162349_g5188320494189_cont_8to1_c_158_11_alg».proof.Proof.FrameRunFirstKernelIdeal

-- membership in a rectangle of these extents is decided structurally, one step per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at a later point: the pieces its stores leave in the result's staging buffer, with the proof that it runs
    from the inputs and the scratch at their contents and the result's buffer at anything, to the continuation holding
    the inputs and the scratch as they were and the result's buffer with the pieces written. -/
noncomputable def kernelRun0_B (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S400x128 .f32) (harg6 : arg6.IsWhole) (arg7 : Memref sig .tc .vmem S10000x128 .f32) (harg7 : arg7.IsWhole) (hc0 : ¬cond0_0 i)
    (x0 : Vec F S10000x128 .f32) (x1 : Vec F S128x128 .f32) (x2 : Vec F S1x128 .f32) (x3 : Vec F S200x10000 .f32) (x4 : Vec F S200x10000 .f32) (xs0 : Vec F S10000x128 .f32) :
    { L5 : List (View.Piece (Elt F) S400x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xs0) -∗ K ⟨⟩))
          ⊢ wp frame (wpE (defs₀ (F := F)) Variants.none c none) E (cc0__gcn_step i arg1 harg1 arg2 harg2 arg3 harg3 arg4 harg4 arg5 harg5 arg6 harg6 arg7 harg7) K } := by
  refine ⟨?_, fun E K => ?run⟩
  case run =>
    simp only [cc0__gcn_step_eq_skeleton]; unfold cc0__gcn_step_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg7.eq_unread hfs0
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; isplitr; · ipureintro; exact harg7.read_unread _
    iexact HS0

end Cert.KernelIdeal.Hand

end
-- ==== Proof.LibSharedFrame.lean ====
/-
  The frame run of a one-region pipeline program whose windows may share an array.

  When a kernel is handed one array through several input windows, the buffers behind the windows' arrays are fewer than
  the windows, and the full share of a shared buffer has to be dealt among the windows on it. The statement below is the
  frame run with a tracked invariant for that case: the certificate says how the distinct buffers, each whole at the full
  share at the contents the region finds, make the proof data's arrays at entry (the hypothesis on the split), the
  invariant is entered from the core's scoped buffers that are no staging buffer (the kernel's scratch, at any contents)
  and returns them after the last point, and the conclusion is the usual one: every window's array holds what the proof
  data compute after the last write-back, and every unscoped buffer that is no window's array holds what it held when the
  region was entered. Nothing here depends on a program.
-/
import Idealize.ShloMosaic.Lib.Pipeline.Frame

noncomputable section

namespace SharedFrame

open Idealize.ShloMosaic Idealize.ShloMosaic.Pipeline
open Idealize.SL
open Idealize.SL.BI (sProp bigSep)
open scoped Idealize.SL.BI
open Idealize.SL.BI.BIBase Idealize.SL.BI.Laws Idealize.SL.Sem Idealize.SL.ProofMode
open Idealize.SL.RA
open TcCoe
open Idealize.ShloMosaic.Rounds

set_option Elab.async false

variable {nD : Nat} {τ : Topo} {sig : RefSig} {Val : EltTy → Type}
variable {Λ₀ : Labels} {P : Type} [Fintype P] [DecidableEq P] [∀ e, Nonempty (Val e)]

local notation "𝕄" => MT nD τ sig Unit Val ℕ (UR sig nD τ) ℕ

/-- The frame run, with a tracked invariant, of a pipeline whose windows may share arrays: `hsplit` deals the buffers
    behind the arrays among the windows, `hin` enters the invariant from the scratch at any contents, `hout` gives the
    scratch back. -/
theorem θ_run_frame_shared (cfgs : P → Cfg sig Λ₀)
    (dats : (p : P) → (c : Dev nD) → Dat τ Val Unit ℕ (UR sig nD τ) ℕ (cfgs p) c) (p : P)
    (hinj : Function.Injective (cellOf (nD := nD) (τ := τ) cfgs))
    (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hin : ∀ c, (scopedRest (cfgs p).spec c : sProp 𝕄) ⊢ (dats p c).Φ 0)
    (hout : ∀ c, (dats p c).Φ (Fin.last (cfgs p).N) ⊢ (scopedRest (cfgs p).spec c : sProp 𝕄)) :
    θ_run (Pipeline.defs (fun q => Cfg.toPCfg (Val := Val) (cfgs q)) defs₀) (onTc main) (s₀ m g) (FramePost cfgs dats p V) := by
  classical
  exact θ_run_region_noSem_shared cfgs dats () hinj p hw emb₁ defs₀ 𝒱₀ m g main hbody hne harr hstage howed
    (u₀ := initOf (cells cfgs hinj) (launchToks cfgs hinj)) (hu₀ := .rfl)
    (V := V) (hmain := hmain) (hsplit := hsplit)
    (X := fun _ => iprop(emp)) (Y := fun _ => iprop(emp))
    (Z := fun c => unscopedRest (Ix := Unit) (Name := ℕ) (U := UR sig nD τ) (Lvl := ℕ) (cfgs p).spec c (V c))
    (hX := fun c => by
      iintro HU
      isplitr; · iempintro
      iexact HU)
    (hin := fun c => (show iprop(emp ∗ scopedRest (cfgs p).spec c) ⊢ (scopedRest (cfgs p).spec c : sProp 𝕄) from by
      iintro ⟨-, H⟩; iexact H).trans (hin c))
    (hout := fun c => (hout c).trans (by
      iintro H
      isplitr; · iempintro
      iexact H))
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2⟩)

end SharedFrame

end
-- ==== Proof.FrameKernelIdeal.lean ====
/-
  The graph-convolution kernel's frame, second part: what the result's staging buffer and the scratch hold after each
  grid point, the proof data, the body obligation at every point, how the adjacency array's full share is dealt between
  the two windows that read it, and the run.

  After point 0 the scratch holds what the first point's stores left in it (the product X · Wᵀ), and after every later
  point it holds the same contents still, since the body only reads it there. After point t the result's staging buffer
  holds the two half-blocks the point's two stores left. The adjacency array is read through two windows; the proof data
  hold it at the left half of the full share for the first and at the right half for the second.
-/
import proofs.«162349_g5188320494189_cont_8to1_c_158_11_alg».proof.Proof.FrameRunLaterKernelIdeal
import proofs.«162349_g5188320494189_cont_8to1_c_158_11_alg».proof.Proof.LibSharedFrame

-- membership in a rectangle of these extents is decided structurally, one step per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- What the first point leaves in the result's staging buffer: its pieces read back over junk. -/
def out0_A_5 (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S400x128 .f32) (harg6 : arg6.IsWhole) (arg7 : Memref sig .tc .vmem S10000x128 .f32) (harg7 : arg7.IsWhole) (hc0 : cond0_0 i)
    (x0 : Vec F S10000x128 .f32) (x1 : Vec F S128x128 .f32) (x2 : Vec F S1x128 .f32) (x3 : Vec F S200x10000 .f32) (x4 : Vec F S200x10000 .f32) : Vec F S400x128 .f32 :=
  VO0_5.read (Elt F) (VO0_5.writes (Elt F) VO0_5.junk (kernelRun0_A c i arg1 harg1 arg2 harg2 arg3 harg3 arg4 harg4 arg5 harg5 arg6 harg6 arg7 harg7 hc0 x0 x1 x2 x3 x4).1)

/-- The first point's two stores into the result's buffer tile it. -/
theorem cover0_A_5 (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S400x128 .f32) (harg6 : arg6.IsWhole) (arg7 : Memref sig .tc .vmem S10000x128 .f32) (harg7 : arg7.IsWhole) (hc0 : cond0_0 i)
    (x0 : Vec F S10000x128 .f32) (x1 : Vec F S128x128 .f32) (x2 : Vec F S1x128 .f32) (x3 : Vec F S200x10000 .f32) (x4 : Vec F S200x10000 .f32) (y : S400x128.Idx) :
    ∃ pc ∈ (kernelRun0_A c i arg1 harg1 arg2 harg2 arg3 harg3 arg4 harg4 arg5 harg5 arg6 harg6 arg7 harg7 hc0 x0 x1 x2 x3 x4).1, y ∈ pc.1.set :=
  View.cover_of_tiledL (kernelRun0_A c i arg1 harg1 arg2 harg2 arg3 harg3 arg4 harg4 arg5 harg5 arg6 harg6 arg7 harg7 hc0 x0 x1 x2 x3 x4).1 S200x128.size (by sl_kernel_rfl) y

/-- What the first point leaves in the scratch: its pieces read back over junk. -/
def sout0_A_0 (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S400x128 .f32) (harg6 : arg6.IsWhole) (arg7 : Memref sig .tc .vmem S10000x128 .f32) (harg7 : arg7.IsWhole) (hc0 : cond0_0 i)
    (x0 : Vec F S10000x128 .f32) (x1 : Vec F S128x128 .f32) (x2 : Vec F S1x128 .f32) (x3 : Vec F S200x10000 .f32) (x4 : Vec F S200x10000 .f32) : Vec F S10000x128 .f32 :=
  VS0_0.read (Elt F) (VS0_0.writes (Elt F) VS0_0.junk (kernelRun0_A c i arg1 harg1 arg2 harg2 arg3 harg3 arg4 harg4 arg5 harg5 arg6 harg6 arg7 harg7 hc0 x0 x1 x2 x3 x4).2.1)

/-- The first point's store into the scratch covers it. -/
theorem scover0_A_0 (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S400x128 .f32) (harg6 : arg6.IsWhole) (arg7 : Memref sig .tc .vmem S10000x128 .f32) (harg7 : arg7.IsWhole) (hc0 : cond0_0 i)
    (x0 : Vec F S10000x128 .f32) (x1 : Vec F S128x128 .f32) (x2 : Vec F S1x128 .f32) (x3 : Vec F S200x10000 .f32) (x4 : Vec F S200x10000 .f32) (y : S10000x128.Idx) :
    ∃ pc ∈ (kernelRun0_A c i arg1 harg1 arg2 harg2 arg3 harg3 arg4 harg4 arg5 harg5 arg6 harg6 arg7 harg7 hc0 x0 x1 x2 x3 x4).2.1, y ∈ pc.1.set :=
  View.cover_of_tiledL (kernelRun0_A c i arg1 harg1 arg2 harg2 arg3 harg3 arg4 harg4 arg5 harg5 arg6 harg6 arg7 harg7 hc0 x0 x1 x2 x3 x4).2.1 S10000x128.size (by sl_kernel_rfl) y

/-- What a later point leaves in the result's staging buffer: its pieces read back over junk. -/
def out0_B_5 (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S400x128 .f32) (harg6 : arg6.IsWhole) (arg7 : Memref sig .tc .vmem S10000x128 .f32) (harg7 : arg7.IsWhole) (hc0 : ¬cond0_0 i)
    (x0 : Vec F S10000x128 .f32) (x1 : Vec F S128x128 .f32) (x2 : Vec F S1x128 .f32) (x3 : Vec F S200x10000 .f32) (x4 : Vec F S200x10000 .f32) (xs0 : Vec F S10000x128 .f32) : Vec F S400x128 .f32 :=
  VO0_5.read (Elt F) (VO0_5.writes (Elt F) VO0_5.junk (kernelRun0_B c i arg1 harg1 arg2 harg2 arg3 harg3 arg4 harg4 arg5 harg5 arg6 harg6 arg7 harg7 hc0 x0 x1 x2 x3 x4 xs0).1)

/-- A later point's two stores into the result's buffer tile it. -/
theorem cover0_B_5 (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S400x128 .f32) (harg6 : arg6.IsWhole) (arg7 : Memref sig .tc .vmem S10000x128 .f32) (harg7 : arg7.IsWhole) (hc0 : ¬cond0_0 i)
    (x0 : Vec F S10000x128 .f32) (x1 : Vec F S128x128 .f32) (x2 : Vec F S1x128 .f32) (x3 : Vec F S200x10000 .f32) (x4 : Vec F S200x10000 .f32) (xs0 : Vec F S10000x128 .f32) (y : S400x128.Idx) :
    ∃ pc ∈ (kernelRun0_B c i arg1 harg1 arg2 harg2 arg3 harg3 arg4 harg4 arg5 harg5 arg6 harg6 arg7 harg7 hc0 x0 x1 x2 x3 x4 xs0).1, y ∈ pc.1.set :=
  View.cover_of_tiledL (kernelRun0_B c i arg1 harg1 arg2 harg2 arg3 harg3 arg4 harg4 arg5 harg5 arg6 harg6 arg7 harg7 hc0 x0 x1 x2 x3 x4 xs0).1 S200x128.size (by sl_kernel_rfl) y

/-! ## What the result's buffer and the scratch hold after each point -/

/-- After the body at position `n`: the result's staging buffer, and the scratch. At the first point both are what that
    point's stores leave; at a later point the result's buffer is what that point's stores leave, computed from the
    scratch as the point before left it, and the scratch is unchanged. -/
def outsAt0 (c : Dev nD) : (n : ℕ) → n < cfg0.N → Vec F S400x128 .f32 × Vec F S10000x128 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr rfl) (iblk m c 0 ⟨0, hn⟩) (iblk m c 1 ⟨0, hn⟩) (iblk m c 2 ⟨0, hn⟩) (iblk m c 3 ⟨0, hn⟩) (iblk m c 4 ⟨0, hn⟩),
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr rfl) (iblk m c 0 ⟨0, hn⟩) (iblk m c 1 ⟨0, hn⟩) (iblk m c 2 ⟨0, hn⟩) (iblk m c 3 ⟨0, hn⟩) (iblk m c 4 ⟨0, hn⟩))
  | n + 1, hn => (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => Nat.succ_ne_zero n ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2,
      (outsAt0 c n (Nat.lt_of_succ_lt hn)).2)

/-- `outsAt0` at the first point. -/
theorem outsAt0_A (c : Dev nD) (t : Fin cfg0.N) (h0 : t.val = 0) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t) (iblk m c 4 t),
      sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t) (iblk m c 4 t)) := by
  obtain ⟨n, hn⟩ := t
  cases n with
  | zero => exact rfl
  | succ n => exact absurd h0 (Nat.succ_ne_zero n)

/-- `outsAt0` at a later point, over what the point before left in the scratch. -/
theorem outsAt0_B (c : Dev nD) (t : Fin cfg0.N) (h0 : ¬t.val = 0) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2,
      (outsAt0 m c (t.val - 1) (Nat.lt_of_le_of_lt (Nat.sub_le _ _) t.isLt)).2) := by
  obtain ⟨n, hn⟩ := t
  cases n with
  | zero => exact absurd rfl h0
  | succ n => exact rfl

/-- The region's invariant before position `n`: before the first point the scratch at anything; afterwards the scratch
    at what the point before left in it. -/
def PhiS (c : Dev nD) : (n : ℕ) → n ≤ cfg0.N → sProp 𝕄
  | 0, _ => iprop((∃ d, owns (c : Thread nD τ) scM0_0 fullShare d))
  | n + 1, hn => owns (c : Thread nD τ) scM0_0 fullShare ((outsAt0 m c n hn).2)

theorem PhiS_zero (c : Dev nD) (n : ℕ) (h : n ≤ cfg0.N) (hz : n = 0) :
    PhiS m c n h = iprop((∃ d, owns (c : Thread nD τ) scM0_0 fullShare d)) := by
  subst hz; rfl

theorem PhiS_succ (c : Dev nD) (n : ℕ) (hn : n < cfg0.N) :
    PhiS m c (n + 1) hn = owns (c : Thread nD τ) scM0_0 fullShare ((outsAt0 m c n hn).2) := rfl

theorem PhiS_pos (c : Dev nD) (n : ℕ) (h : n ≤ cfg0.N) (hz : n ≠ 0) :
    PhiS m c n h = owns (c : Thread nD τ) scM0_0 fullShare ((outsAt0 m c (n - 1) (by omega)).2) := by
  cases n with
  | zero => exact absurd rfl hz
  | succ n => rfl

/-! ## The proof data -/

/-- The proof data on core `c`: the arrays as the region finds them; after the body at point `t` each input's buffer at
    its block and the result's at `outsAt0`; the invariant the scratch (`PhiS`); the adjacency array held at the left
    half of the full share by its first window and at the right half by its second, every other input at the full share;
    nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
  Φ t := PhiS m c t.val (Nat.le_of_lt_succ t.isLt)
  q w := match w with
    | ⟨0, _⟩ => fullShare
    | ⟨1, _⟩ => fullShare
    | ⟨2, _⟩ => fullShare
    | ⟨3, _⟩ => fullShare.left
    | ⟨4, _⟩ => fullShare.right
    | ⟨5, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
/-- The body at any point: the inputs' memrefs hold their blocks; the point is the first or a later one; the invariant
    hands the body the scratch (at anything at the first point, at what the point before left afterwards) and takes it
    back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  by_cases h0 : t.val = 0
  · rw [outsAt0_A m c t h0]
    unfold out0_A_5 sout0_A_0; (try dsimp only)
    rw [PhiS_castSucc m c t, PhiS_zero m c _ _ h0]
    iintro ⟨HS0, Ho, ⟨%d0, H0⟩, ⟨%d1, H1⟩, ⟨%d2, H2⟩, ⟨%d3, H3⟩, ⟨%d4, H4⟩, ⟨%d5, H5⟩⟩
    iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t) (iblk m c 4 t)).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    iintro ⟨H0, H1, H2, H3, H4, ⟨%e5, H5⟩, ⟨%es0, HS0⟩⟩
    isplitl [HS0]
    · unfold owns; iexists _; isplitr
      swap; · iexact HS0
      ipureintro; exact View.read_writes_of_cover _ _ _ _ _ (scover0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t) (iblk m c 4 t))
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t) (iblk m c 4 t))
  · rw [outsAt0_B m c t h0]
    unfold out0_B_5; (try dsimp only)
    rw [PhiS_castSucc m c t, PhiS_pos m c _ _ h0]
    iintro ⟨HS0, Ho, ⟨%d0, H0⟩, ⟨%d1, H1⟩, ⟨%d2, H2⟩, ⟨%d3, H3⟩, ⟨%d4, H4⟩, ⟨%d5, H5⟩⟩
    iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2).2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    iintro ⟨H0, H1, H2, H3, H4, ⟨%e5, H5⟩, HS0⟩
    isplitl [HS0]; · iexact HS0
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## Entering and leaving the invariant -/

/-- What the launch hands the region — the scratch at anything — is the invariant before the first point. -/
theorem hin (c : Dev nD) : (Pipeline.scopedRest spec0 c : sProp 𝕄) ⊢ (dats m 0 c).Φ 0 := by
  rw [scratch_eq, show (dats m 0 c).Φ 0 = PhiS m c 0 (Nat.zero_le _) from rfl, PhiS_zero m c 0 _ rfl]
  try exact Idealize.SL.BI.Entails.refl _

/-- After the last point the invariant gives the scratch back, its contents forgotten. -/
theorem hout (c : Dev nD) : (dats m 0 c).Φ (Fin.last cfg0.N) ⊢ (Pipeline.scopedRest spec0 c : sProp 𝕄) := by
  rw [scratch_eq, show (dats m 0 c).Φ (Fin.last cfg0.N) = PhiS m c (Fin.last cfg0.N).val (Nat.le_of_lt_succ (Fin.last cfg0.N).isLt) from rfl,
    PhiS_pos m c _ _ (by rw [Fin.val_last]; have : cfg0.N = 25 := N_0; omega)]
  iintro H; iexists _; iexact H

end Cert.KernelIdeal.Hand

end
-- ==== Proof.FrameLaunchKernelIdeal.lean ====
/-
  The graph-convolution kernel's frame, third part: the launch. The buffers behind the windows' arrays are five — the
  node features, the weights, the reshaped bias, the adjacency and the result — for six windows: the adjacency's full
  share is split into its left and right halves, one for each of the two windows that read it. With that the region
  runs, and the frame follows: every execution ends, nothing faults, and the four argument arrays end as they began
  (three of them are windows' arrays, never written; the bias is touched by no window and bypasses the region).
-/
import proofs.«162349_g5188320494189_cont_8to1_c_158_11_alg».proof.Proof.FrameKernelIdeal

-- membership in a rectangle of these extents is decided structurally, one step per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers behind the six windows' arrays, listed. -/
theorem arrRefs_eq : Finset.univ.image (Pipeline.arrRef spec0) = [main_arg0, main_arg2, main_call0_v0, main_arg1, main_v0].toFinset := by
  decide

/-- The proof data's arrays at entry, window by window: each is the whole buffer behind it at the contents the region
    finds, the adjacency at the two halves of the full share. -/
theorem arrays_entry (c : Dev nD) :
    ((dats m 0 c).arrays ((dats m 0 c).arrAt · 0) : sProp 𝕄)
      = iprop((((c : Thread nD τ).loc main_arg0) ↦{fullShare} V m c main_arg0)
          ∗ (((c : Thread nD τ).loc main_arg2) ↦{fullShare} V m c main_arg2)
          ∗ (((c : Thread nD τ).loc main_call0_v0) ↦{fullShare} V m c main_call0_v0)
          ∗ (((c : Thread nD τ).loc main_arg1) ↦{fullShare.left} V m c main_arg1)
          ∗ (((c : Thread nD τ).loc main_arg1) ↦{fullShare.right} V m c main_arg1)
          ∗ (((c : Thread nD τ).loc main_v0) ↦{fullShare} V m c main_v0)) := by
  unfold Dat.arrays
  rw [bigSep_W0]
  rw [(arr_whole0 0).set_eq_univ, (arr_whole0 1).set_eq_univ, (arr_whole0 2).set_eq_univ, (arr_whole0 3).set_eq_univ,
    (arr_whole0 5).set_eq_univ]
  rfl

/-- The buffers behind the arrays, each whole at the full share at the contents the region finds, one by one. -/
theorem arrBufs_eq (c : Dev nD) :
    (Pipeline.arrBufs (Ix := Unit) (Name := ℕ) (U := UR sig nD τ) (Lvl := ℕ) spec0 c (V m c) : sProp 𝕄)
      = iprop((((c : Thread nD τ).loc main_arg0) ↦{fullShare} V m c main_arg0)
          ∗ (((c : Thread nD τ).loc main_arg2) ↦{fullShare} V m c main_arg2)
          ∗ (((c : Thread nD τ).loc main_call0_v0) ↦{fullShare} V m c main_call0_v0)
          ∗ (((c : Thread nD τ).loc main_arg1) ↦{fullShare} V m c main_arg1)
          ∗ (((c : Thread nD τ).loc main_v0) ↦{fullShare} V m c main_v0)) := by
  unfold Pipeline.arrBufs
  exact bigSep_eq_bigSepL_of_eq [main_arg0, main_arg2, main_call0_v0, main_arg1, main_v0] arrRefs_eq (by decide) _

/-- The five buffers, each whole at the full share, make the six windows' arrays: the adjacency's share is split. -/
theorem hsplit (c : Dev nD) :
    (Pipeline.arrBufs spec0 c (V m c) : sProp 𝕄) ⊢ (dats m 0 c).arrays ((dats m 0 c).arrAt · 0) := by
  rw [arrays_entry, arrBufs_eq]
  iintro ⟨H0, H2, Hb, H1, Hv⟩
  ihave H1' := (pointsTo_share (PosShare.mem_left_op_right fullShare)).1 $$ H1
  icases H1' with ⟨H1l, H1r⟩
  isplitl [H0]; · iexact H0
  isplitl [H2]; · iexact H2
  isplitl [Hb]; · iexact Hb
  isplitl [H1l]; · iexact H1l
  isplitl [H1r]; · iexact H1r
  iexact Hv

/-- At the compiled mesh, for any values, from any memory with zero counters: every weakly fair execution of the program
    terminates, and every final state has every window's array at what the proof data compute and every other unscoped
    buffer as the region found it. -/
theorem run_main : θ_run defs (onTc (τ := τ) (main (F := F))) (s₀ m ρ) (Pipeline.FramePost cfgs (dats m) 0 (V m)) :=
  SharedFrame.θ_run_frame_shared cfgs (dats m) (0 : Fin 1) cellOf_inj winFacts₀0 block_pos0 arr_whole0 stage_whole0 defs₀ Variants.none m ρ main
    (hbody := fun c => (body_obligation m c).loose) (howed := fun _ _ => rfl)
    (V := V m) (hmain := hmain m Variants.none) (hsplit := hsplit m) (hin := hin m) (hout := hout m)

/-- The frame: the program runs to the end, nothing faults, and its four argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 0).trans (((dats m 0 c).arrAt_in 0 rfl _).trans ((A_eq m c 0).trans (V_main_arg0 m c))),
      ((h c).1 3).trans (((dats m 0 c).arrAt_in 3 rfl _).trans ((A_eq m c 3).trans (V_main_arg1 m c))),
      ((h c).1 1).trans (((dats m 0 c).arrAt_in 1 rfl _).trans ((A_eq m c 1).trans (V_main_arg2 m c))),
      ((h c).2 main_arg3 (Pipeline.mem_restRefs_of main_arg3 (by decide) (by decide))).trans (V_main_arg3 m c)⟩) (run_main m ρ)

end Cert.KernelIdeal.Hand

end
-- ==== Proof.FrameBaseKernel.lean ====
/-
  The graph-convolution kernel's frame, first part: the program up to its one region, and what the region's body is
  handed at each of the 25 grid points.

  The program reshapes the bias to a one-row matrix and then runs the region. The region's six windows: the node
  features X (whole, fetched once), the weights W (whole, fetched once), the bias row (whole, fetched once), two windows
  on the SAME adjacency array (rows 400 t … 400 t + 199 and rows 400 t + 200 … 400 t + 399 at point t, each fetched at
  every point), and the result (rows 400 t … 400 t + 399, written back at every point). The body keeps the product
  X · Wᵀ in a scratch buffer: it computes it at point 0 (the one branch of the body, taken exactly there) and reads it
  at every point.
-/
import proofs.«162349_g5188320494189_cont_8to1_c_158_11_alg».proof.Proof.FrameLaunchKernelIdeal
import proofs.«162349_g5188320494189_cont_8to1_c_158_11_alg».proof.Proof.Gen.Kernel.Launch
import proofs.«162349_g5188320494189_cont_8to1_c_158_11_alg».proof.Proof.Gen.Kernel.Skeleton
import proofs.«162349_g5188320494189_cont_8to1_c_158_11_alg».proof.Proof.Gen.Kernel.Points
import Idealize.ShloMosaic.Lib.Pipeline.FrameBody
import Idealize.ShloMosaic.Lib.Ring
import Idealize.ShloMosaic.Lib.Tactic

-- membership in a rectangle of these extents is decided structurally, one step per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- Core `c`'s buffers when the region is entered: after the reshape of the bias. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is the reshape and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The one host operation before the region writes the reshaped bias only: the region finds `main_arg0` as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The one host operation before the region writes the reshaped bias only: the region finds `main_arg1` as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The one host operation before the region writes the reshaped bias only: the region finds `main_arg2` as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The one host operation before the region writes the reshaped bias only: the region finds `main_arg3` as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not: when it is not
    fetched its block index has not moved, and the body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not: when it is not
    fetched its block index has not moved, and the body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not: when it is not
    fetched its block index has not moved, and the body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not: when it is not
    fetched its block index has not moved, and the body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not: when it is not
    fetched its block index has not moved, and the body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's one branch -/

/-- The branch's condition from the grid coordinate: the point is the first. -/
abbrev cond0_0 (i : grid0.Coords) : Prop := (Scalar.cmpi .ne (Scalar.extui (Scalar.cmpi .eq (BitVec.ofNat 32 (i 0).val) 0#32)) 0#32) = 1#1
/-- It holds at point 0 only. -/
theorem hcond0_0 : ∀ t : Fin cfg0.N, cond0_0 (grid0.coords t) ↔ t.val = 0 :=
  (by decide +kernel : ∀ t : Fin grid0.N, cond0_0 (grid0.coords t) ↔ t.val = 0)

/-! ## No window is ever idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel

/-! ## The staging memrefs at a point, and the scratch -/

/-- One staging buffer of the result window, through which its contents are stated (the choice does not matter). -/
abbrev VO0_5 : View sig .tc .vmem S400x128 .f32 := (Memref.whole cc0_stg5_0 : Memref sig .tc .vmem S400x128 .f32).view
abbrev ms0_0 (t : Fin cfg0.N) : Memref sig .tc .vmem S10000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S200x10000 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S200x10000 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S400x128 .f32 := win0_5.stage (cfg0.slots t 5)
abbrev hs0_5 (t : Fin cfg0.N) : (ms0_5 t).IsWhole := hstage0_5 ((cfg0.slots t 5).cast nbuf0_5)
/-- The scratch: a whole scoped buffer of the kernel's own, passed beside the windows. -/
abbrev scM0_0 : Memref sig .tc .vmem S10000x128 .f32 := Memref.whole cc0_scratch0
/-- The scratch as a view: what it holds is stated through it. -/
abbrev VS0_0 : View sig .tc .vmem S10000x128 .f32 := scM0_0.view

/-- The core's scoped buffers that are no staging buffer are the scratch alone, owned at some contents. -/
theorem scratch_eq (c : Dev nD) :
    (Pipeline.scopedRest (Ix := Unit) (Name := ℕ) (U := UR sig nD τ) (Lvl := ℕ) (Val := Elt F) spec0 c : sProp 𝕄)
      = iprop((∃ d, owns (c : Thread nD τ) scM0_0 fullShare d)) := by
  rw [scopedRest0_eq]; simp only [scM0_0, owns_whole]; try rfl

end Cert.Kernel.Hand

end
-- ==== Proof.FrameRunFirstKernel.lean ====
/-
  The region's body at the first grid point, run on any whole staging memrefs: the inputs' at their contents, the
  result's and the scratch at anything. The branch is taken: the product X · Wᵀ is stored into the scratch, read back
  from it twice, and the two halves of the result block are stored. What the stores leave in the result's buffer and in
  the scratch is named by the lists of pieces the run finds.
-/
import proofs.«162349_g5188320494189_cont_8to1_c_158_11_alg».proof.Proof.FrameBaseKernel

-- membership in a rectangle of these extents is decided structurally, one step per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at the first point: the pieces its stores leave in the result's staging buffer and in the scratch, with
    the proof that it runs from the inputs at their contents, the result's buffer and the scratch at anything, to the
    continuation holding the inputs as they were and those two buffers with the pieces written. -/
noncomputable def kernelRun0_A (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S400x128 .f32) (harg6 : arg6.IsWhole) (arg7 : Memref sig .tc .vmem S10000x128 .f32) (harg7 : arg7.IsWhole) (hc0 : cond0_0 i)
    (x0 : Vec F S10000x128 .f32) (x1 : Vec F S128x128 .f32) (x2 : Vec F S1x128 .f32) (x3 : Vec F S200x10000 .f32) (x4 : Vec F S200x10000 .f32) :
    Σ' (L5 : List (View.Piece (Elt F) S400x128 .f32)), { LS0 : List (View.Piece (Elt F) S10000x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0)) -∗ K ⟨⟩))
          ⊢ wp frame (wpE (defs₀ (F := F)) Variants.none c none) E (cc0__gcn_step i arg1 harg1 arg2 harg2 arg3 harg3 arg4 harg4 arg5 harg5 arg6 harg6 arg7 harg7) K } := by
  refine ⟨?_, ?_, fun E K => ?run⟩
  case run =>
    simp only [cc0__gcn_step_eq_skeleton]; unfold cc0__gcn_step_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, Hk⟩
    obtain rfl := harg1.eq_unread hf0; obtain rfl := harg2.eq_unread hf1; obtain rfl := harg3.eq_unread hf2
    obtain rfl := harg4.eq_unread hf3; obtain rfl := harg5.eq_unread hf4
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact HS0

end Cert.Kernel.Hand

end
-- ==== Proof.FrameRunLaterKernel.lean ====
/-
  The region's body at a grid point after the first, run on any whole staging memrefs: the inputs' at their contents,
  the result's at anything, the scratch at the contents the earlier points left (it is only read). The branch is not
  taken; the two halves of the result block are stored. What the stores leave in the result's buffer is named by the
  list of pieces the run finds.
-/
import proofs.«162349_g5188320494189_cont_8to1_c_158_11_alg».proof.Proof.FrameRunFirstKernel

-- membership in a rectangle of these extents is decided structurally, one step per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at a later point: the pieces its stores leave in the result's staging buffer, with the proof that it runs
    from the inputs and the scratch at their contents and the result's buffer at anything, to the continuation holding
    the inputs and the scratch as they were and the result's buffer with the pieces written. -/
noncomputable def kernelRun0_B (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S400x128 .f32) (harg6 : arg6.IsWhole) (arg7 : Memref sig .tc .vmem S10000x128 .f32) (harg7 : arg7.IsWhole) (hc0 : ¬cond0_0 i)
    (x0 : Vec F S10000x128 .f32) (x1 : Vec F S128x128 .f32) (x2 : Vec F S1x128 .f32) (x3 : Vec F S200x10000 .f32) (x4 : Vec F S200x10000 .f32) (xs0 : Vec F S10000x128 .f32) :
    { L5 : List (View.Piece (Elt F) S400x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xs0) -∗ K ⟨⟩))
          ⊢ wp frame (wpE (defs₀ (F := F)) Variants.none c none) E (cc0__gcn_step i arg1 harg1 arg2 harg2 arg3 harg3 arg4 harg4 arg5 harg5 arg6 harg6 arg7 harg7) K } := by
  refine ⟨?_, fun E K => ?run⟩
  case run =>
    simp only [cc0__gcn_step_eq_skeleton]; unfold cc0__gcn_step_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg7.eq_unread hfs0
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; isplitr; · ipureintro; exact harg7.read_unread _
    iexact HS0

end Cert.Kernel.Hand

end
-- ==== Proof.FrameKernel.lean ====
/-
  The graph-convolution kernel's frame, second part: what the result's staging buffer and the scratch hold after each
  grid point, the proof data, the body obligation at every point, how the adjacency array's full share is dealt between
  the two windows that read it, and the run.

  After point 0 the scratch holds what the first point's stores left in it (the product X · Wᵀ), and after every later
  point it holds the same contents still, since the body only reads it there. After point t the result's staging buffer
  holds the two half-blocks the point's two stores left. The adjacency array is read through two windows; the proof data
  hold it at the left half of the full share for the first and at the right half for the second.
-/
import proofs.«162349_g5188320494189_cont_8to1_c_158_11_alg».proof.Proof.FrameRunLaterKernel
import proofs.«162349_g5188320494189_cont_8to1_c_158_11_alg».proof.Proof.LibSharedFrame

-- membership in a rectangle of these extents is decided structurally, one step per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- What the first point leaves in the result's staging buffer: its pieces read back over junk. -/
def out0_A_5 (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S400x128 .f32) (harg6 : arg6.IsWhole) (arg7 : Memref sig .tc .vmem S10000x128 .f32) (harg7 : arg7.IsWhole) (hc0 : cond0_0 i)
    (x0 : Vec F S10000x128 .f32) (x1 : Vec F S128x128 .f32) (x2 : Vec F S1x128 .f32) (x3 : Vec F S200x10000 .f32) (x4 : Vec F S200x10000 .f32) : Vec F S400x128 .f32 :=
  VO0_5.read (Elt F) (VO0_5.writes (Elt F) VO0_5.junk (kernelRun0_A c i arg1 harg1 arg2 harg2 arg3 harg3 arg4 harg4 arg5 harg5 arg6 harg6 arg7 harg7 hc0 x0 x1 x2 x3 x4).1)

/-- The first point's two stores into the result's buffer tile it. -/
theorem cover0_A_5 (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S400x128 .f32) (harg6 : arg6.IsWhole) (arg7 : Memref sig .tc .vmem S10000x128 .f32) (harg7 : arg7.IsWhole) (hc0 : cond0_0 i)
    (x0 : Vec F S10000x128 .f32) (x1 : Vec F S128x128 .f32) (x2 : Vec F S1x128 .f32) (x3 : Vec F S200x10000 .f32) (x4 : Vec F S200x10000 .f32) (y : S400x128.Idx) :
    ∃ pc ∈ (kernelRun0_A c i arg1 harg1 arg2 harg2 arg3 harg3 arg4 harg4 arg5 harg5 arg6 harg6 arg7 harg7 hc0 x0 x1 x2 x3 x4).1, y ∈ pc.1.set :=
  View.cover_of_tiledL (kernelRun0_A c i arg1 harg1 arg2 harg2 arg3 harg3 arg4 harg4 arg5 harg5 arg6 harg6 arg7 harg7 hc0 x0 x1 x2 x3 x4).1 S200x128.size (by sl_kernel_rfl) y

/-- What the first point leaves in the scratch: its pieces read back over junk. -/
def sout0_A_0 (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S400x128 .f32) (harg6 : arg6.IsWhole) (arg7 : Memref sig .tc .vmem S10000x128 .f32) (harg7 : arg7.IsWhole) (hc0 : cond0_0 i)
    (x0 : Vec F S10000x128 .f32) (x1 : Vec F S128x128 .f32) (x2 : Vec F S1x128 .f32) (x3 : Vec F S200x10000 .f32) (x4 : Vec F S200x10000 .f32) : Vec F S10000x128 .f32 :=
  VS0_0.read (Elt F) (VS0_0.writes (Elt F) VS0_0.junk (kernelRun0_A c i arg1 harg1 arg2 harg2 arg3 harg3 arg4 harg4 arg5 harg5 arg6 harg6 arg7 harg7 hc0 x0 x1 x2 x3 x4).2.1)

/-- The first point's store into the scratch covers it. -/
theorem scover0_A_0 (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S400x128 .f32) (harg6 : arg6.IsWhole) (arg7 : Memref sig .tc .vmem S10000x128 .f32) (harg7 : arg7.IsWhole) (hc0 : cond0_0 i)
    (x0 : Vec F S10000x128 .f32) (x1 : Vec F S128x128 .f32) (x2 : Vec F S1x128 .f32) (x3 : Vec F S200x10000 .f32) (x4 : Vec F S200x10000 .f32) (y : S10000x128.Idx) :
    ∃ pc ∈ (kernelRun0_A c i arg1 harg1 arg2 harg2 arg3 harg3 arg4 harg4 arg5 harg5 arg6 harg6 arg7 harg7 hc0 x0 x1 x2 x3 x4).2.1, y ∈ pc.1.set :=
  View.cover_of_tiledL (kernelRun0_A c i arg1 harg1 arg2 harg2 arg3 harg3 arg4 harg4 arg5 harg5 arg6 harg6 arg7 harg7 hc0 x0 x1 x2 x3 x4).2.1 S10000x128.size (by sl_kernel_rfl) y

/-- What a later point leaves in the result's staging buffer: its pieces read back over junk. -/
def out0_B_5 (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S400x128 .f32) (harg6 : arg6.IsWhole) (arg7 : Memref sig .tc .vmem S10000x128 .f32) (harg7 : arg7.IsWhole) (hc0 : ¬cond0_0 i)
    (x0 : Vec F S10000x128 .f32) (x1 : Vec F S128x128 .f32) (x2 : Vec F S1x128 .f32) (x3 : Vec F S200x10000 .f32) (x4 : Vec F S200x10000 .f32) (xs0 : Vec F S10000x128 .f32) : Vec F S400x128 .f32 :=
  VO0_5.read (Elt F) (VO0_5.writes (Elt F) VO0_5.junk (kernelRun0_B c i arg1 harg1 arg2 harg2 arg3 harg3 arg4 harg4 arg5 harg5 arg6 harg6 arg7 harg7 hc0 x0 x1 x2 x3 x4 xs0).1)

/-- A later point's two stores into the result's buffer tile it. -/
theorem cover0_B_5 (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S400x128 .f32) (harg6 : arg6.IsWhole) (arg7 : Memref sig .tc .vmem S10000x128 .f32) (harg7 : arg7.IsWhole) (hc0 : ¬cond0_0 i)
    (x0 : Vec F S10000x128 .f32) (x1 : Vec F S128x128 .f32) (x2 : Vec F S1x128 .f32) (x3 : Vec F S200x10000 .f32) (x4 : Vec F S200x10000 .f32) (xs0 : Vec F S10000x128 .f32) (y : S400x128.Idx) :
    ∃ pc ∈ (kernelRun0_B c i arg1 harg1 arg2 harg2 arg3 harg3 arg4 harg4 arg5 harg5 arg6 harg6 arg7 harg7 hc0 x0 x1 x2 x3 x4 xs0).1, y ∈ pc.1.set :=
  View.cover_of_tiledL (kernelRun0_B c i arg1 harg1 arg2 harg2 arg3 harg3 arg4 harg4 arg5 harg5 arg6 harg6 arg7 harg7 hc0 x0 x1 x2 x3 x4 xs0).1 S200x128.size (by sl_kernel_rfl) y

/-! ## What the result's buffer and the scratch hold after each point -/

/-- After the body at position `n`: the result's staging buffer, and the scratch. At the first point both are what that
    point's stores leave; at a later point the result's buffer is what that point's stores leave, computed from the
    scratch as the point before left it, and the scratch is unchanged. -/
def outsAt0 (c : Dev nD) : (n : ℕ) → n < cfg0.N → Vec F S400x128 .f32 × Vec F S10000x128 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr rfl) (iblk m c 0 ⟨0, hn⟩) (iblk m c 1 ⟨0, hn⟩) (iblk m c 2 ⟨0, hn⟩) (iblk m c 3 ⟨0, hn⟩) (iblk m c 4 ⟨0, hn⟩),
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr rfl) (iblk m c 0 ⟨0, hn⟩) (iblk m c 1 ⟨0, hn⟩) (iblk m c 2 ⟨0, hn⟩) (iblk m c 3 ⟨0, hn⟩) (iblk m c 4 ⟨0, hn⟩))
  | n + 1, hn => (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => Nat.succ_ne_zero n ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2,
      (outsAt0 c n (Nat.lt_of_succ_lt hn)).2)

/-- `outsAt0` at the first point. -/
theorem outsAt0_A (c : Dev nD) (t : Fin cfg0.N) (h0 : t.val = 0) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t) (iblk m c 4 t),
      sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t) (iblk m c 4 t)) := by
  obtain ⟨n, hn⟩ := t
  cases n with
  | zero => exact rfl
  | succ n => exact absurd h0 (Nat.succ_ne_zero n)

/-- `outsAt0` at a later point, over what the point before left in the scratch. -/
theorem outsAt0_B (c : Dev nD) (t : Fin cfg0.N) (h0 : ¬t.val = 0) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2,
      (outsAt0 m c (t.val - 1) (Nat.lt_of_le_of_lt (Nat.sub_le _ _) t.isLt)).2) := by
  obtain ⟨n, hn⟩ := t
  cases n with
  | zero => exact absurd rfl h0
  | succ n => exact rfl

/-- The region's invariant before position `n`: before the first point the scratch at anything; afterwards the scratch
    at what the point before left in it. -/
def PhiS (c : Dev nD) : (n : ℕ) → n ≤ cfg0.N → sProp 𝕄
  | 0, _ => iprop((∃ d, owns (c : Thread nD τ) scM0_0 fullShare d))
  | n + 1, hn => owns (c : Thread nD τ) scM0_0 fullShare ((outsAt0 m c n hn).2)

theorem PhiS_zero (c : Dev nD) (n : ℕ) (h : n ≤ cfg0.N) (hz : n = 0) :
    PhiS m c n h = iprop((∃ d, owns (c : Thread nD τ) scM0_0 fullShare d)) := by
  subst hz; rfl

theorem PhiS_succ (c : Dev nD) (n : ℕ) (hn : n < cfg0.N) :
    PhiS m c (n + 1) hn = owns (c : Thread nD τ) scM0_0 fullShare ((outsAt0 m c n hn).2) := rfl

theorem PhiS_pos (c : Dev nD) (n : ℕ) (h : n ≤ cfg0.N) (hz : n ≠ 0) :
    PhiS m c n h = owns (c : Thread nD τ) scM0_0 fullShare ((outsAt0 m c (n - 1) (by omega)).2) := by
  cases n with
  | zero => exact absurd rfl hz
  | succ n => rfl

/-! ## The proof data -/

/-- The proof data on core `c`: the arrays as the region finds them; after the body at point `t` each input's buffer at
    its block and the result's at `outsAt0`; the invariant the scratch (`PhiS`); the adjacency array held at the left
    half of the full share by its first window and at the right half by its second, every other input at the full share;
    nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
  Φ t := PhiS m c t.val (Nat.le_of_lt_succ t.isLt)
  q w := match w with
    | ⟨0, _⟩ => fullShare
    | ⟨1, _⟩ => fullShare
    | ⟨2, _⟩ => fullShare
    | ⟨3, _⟩ => fullShare.left
    | ⟨4, _⟩ => fullShare.right
    | ⟨5, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
/-- The body at any point: the inputs' memrefs hold their blocks; the point is the first or a later one; the invariant
    hands the body the scratch (at anything at the first point, at what the point before left afterwards) and takes it
    back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  by_cases h0 : t.val = 0
  · rw [outsAt0_A m c t h0]
    unfold out0_A_5 sout0_A_0; (try dsimp only)
    rw [PhiS_castSucc m c t, PhiS_zero m c _ _ h0]
    iintro ⟨HS0, Ho, ⟨%d0, H0⟩, ⟨%d1, H1⟩, ⟨%d2, H2⟩, ⟨%d3, H3⟩, ⟨%d4, H4⟩, ⟨%d5, H5⟩⟩
    iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t) (iblk m c 4 t)).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    iintro ⟨H0, H1, H2, H3, H4, ⟨%e5, H5⟩, ⟨%es0, HS0⟩⟩
    isplitl [HS0]
    · unfold owns; iexists _; isplitr
      swap; · iexact HS0
      ipureintro; exact View.read_writes_of_cover _ _ _ _ _ (scover0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t) (iblk m c 4 t))
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t) (iblk m c 4 t))
  · rw [outsAt0_B m c t h0]
    unfold out0_B_5; (try dsimp only)
    rw [PhiS_castSucc m c t, PhiS_pos m c _ _ h0]
    iintro ⟨HS0, Ho, ⟨%d0, H0⟩, ⟨%d1, H1⟩, ⟨%d2, H2⟩, ⟨%d3, H3⟩, ⟨%d4, H4⟩, ⟨%d5, H5⟩⟩
    iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2).2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    iintro ⟨H0, H1, H2, H3, H4, ⟨%e5, H5⟩, HS0⟩
    isplitl [HS0]; · iexact HS0
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## Entering and leaving the invariant -/

/-- What the launch hands the region — the scratch at anything — is the invariant before the first point. -/
theorem hin (c : Dev nD) : (Pipeline.scopedRest spec0 c : sProp 𝕄) ⊢ (dats m 0 c).Φ 0 := by
  rw [scratch_eq, show (dats m 0 c).Φ 0 = PhiS m c 0 (Nat.zero_le _) from rfl, PhiS_zero m c 0 _ rfl]
  try exact Idealize.SL.BI.Entails.refl _

/-- After the last point the invariant gives the scratch back, its contents forgotten. -/
theorem hout (c : Dev nD) : (dats m 0 c).Φ (Fin.last cfg0.N) ⊢ (Pipeline.scopedRest spec0 c : sProp 𝕄) := by
  rw [scratch_eq, show (dats m 0 c).Φ (Fin.last cfg0.N) = PhiS m c (Fin.last cfg0.N).val (Nat.le_of_lt_succ (Fin.last cfg0.N).isLt) from rfl,
    PhiS_pos m c _ _ (by rw [Fin.val_last]; have : cfg0.N = 25 := N_0; omega)]
  iintro H; iexists _; iexact H

end Cert.Kernel.Hand

end
-- ==== Proof.FrameLaunchKernel.lean ====
/-
  The graph-convolution kernel's frame, third part: the launch. The buffers behind the windows' arrays are five — the
  node features, the weights, the reshaped bias, the adjacency and the result — for six windows: the adjacency's full
  share is split into its left and right halves, one for each of the two windows that read it. With that the region
  runs, and the frame follows: every execution ends, nothing faults, and the four argument arrays end as they began
  (three of them are windows' arrays, never written; the bias is touched by no window and bypasses the region).
-/
import proofs.«162349_g5188320494189_cont_8to1_c_158_11_alg».proof.Proof.FrameKernel

-- membership in a rectangle of these extents is decided structurally, one step per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers behind the six windows' arrays, listed. -/
theorem arrRefs_eq : Finset.univ.image (Pipeline.arrRef spec0) = [main_arg0, main_arg2, main_call0_v0, main_arg1, main_v0].toFinset := by
  decide

/-- The proof data's arrays at entry, window by window: each is the whole buffer behind it at the contents the region
    finds, the adjacency at the two halves of the full share. -/
theorem arrays_entry (c : Dev nD) :
    ((dats m 0 c).arrays ((dats m 0 c).arrAt · 0) : sProp 𝕄)
      = iprop((((c : Thread nD τ).loc main_arg0) ↦{fullShare} V m c main_arg0)
          ∗ (((c : Thread nD τ).loc main_arg2) ↦{fullShare} V m c main_arg2)
          ∗ (((c : Thread nD τ).loc main_call0_v0) ↦{fullShare} V m c main_call0_v0)
          ∗ (((c : Thread nD τ).loc main_arg1) ↦{fullShare.left} V m c main_arg1)
          ∗ (((c : Thread nD τ).loc main_arg1) ↦{fullShare.right} V m c main_arg1)
          ∗ (((c : Thread nD τ).loc main_v0) ↦{fullShare} V m c main_v0)) := by
  unfold Dat.arrays
  rw [bigSep_W0]
  rw [(arr_whole0 0).set_eq_univ, (arr_whole0 1).set_eq_univ, (arr_whole0 2).set_eq_univ, (arr_whole0 3).set_eq_univ,
    (arr_whole0 5).set_eq_univ]
  rfl

/-- The buffers behind the arrays, each whole at the full share at the contents the region finds, one by one. -/
theorem arrBufs_eq (c : Dev nD) :
    (Pipeline.arrBufs (Ix := Unit) (Name := ℕ) (U := UR sig nD τ) (Lvl := ℕ) spec0 c (V m c) : sProp 𝕄)
      = iprop((((c : Thread nD τ).loc main_arg0) ↦{fullShare} V m c main_arg0)
          ∗ (((c : Thread nD τ).loc main_arg2) ↦{fullShare} V m c main_arg2)
          ∗ (((c : Thread nD τ).loc main_call0_v0) ↦{fullShare} V m c main_call0_v0)
          ∗ (((c : Thread nD τ).loc main_arg1) ↦{fullShare} V m c main_arg1)
          ∗ (((c : Thread nD τ).loc main_v0) ↦{fullShare} V m c main_v0)) := by
  unfold Pipeline.arrBufs
  exact bigSep_eq_bigSepL_of_eq [main_arg0, main_arg2, main_call0_v0, main_arg1, main_v0] arrRefs_eq (by decide) _

/-- The five buffers, each whole at the full share, make the six windows' arrays: the adjacency's share is split. -/
theorem hsplit (c : Dev nD) :
    (Pipeline.arrBufs spec0 c (V m c) : sProp 𝕄) ⊢ (dats m 0 c).arrays ((dats m 0 c).arrAt · 0) := by
  rw [arrays_entry, arrBufs_eq]
  iintro ⟨H0, H2, Hb, H1, Hv⟩
  ihave H1' := (pointsTo_share (PosShare.mem_left_op_right fullShare)).1 $$ H1
  icases H1' with ⟨H1l, H1r⟩
  isplitl [H0]; · iexact H0
  isplitl [H2]; · iexact H2
  isplitl [Hb]; · iexact Hb
  isplitl [H1l]; · iexact H1l
  isplitl [H1r]; · iexact H1r
  iexact Hv

/-- At the compiled mesh, for any values, from any memory with zero counters: every weakly fair execution of the program
    terminates, and every final state has every window's array at what the proof data compute and every other unscoped
    buffer as the region found it. -/
theorem run_main : θ_run defs (onTc (τ := τ) (main (F := F))) (s₀ m ρ) (Pipeline.FramePost cfgs (dats m) 0 (V m)) :=
  SharedFrame.θ_run_frame_shared cfgs (dats m) (0 : Fin 1) cellOf_inj winFacts₀0 block_pos0 arr_whole0 stage_whole0 defs₀ Variants.none m ρ main
    (hbody := fun c => (body_obligation m c).loose) (howed := fun _ _ => rfl)
    (V := V m) (hmain := hmain m Variants.none) (hsplit := hsplit m) (hin := hin m) (hout := hout m)

/-- The frame: the program runs to the end, nothing faults, and its four argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 0).trans (((dats m 0 c).arrAt_in 0 rfl _).trans ((A_eq m c 0).trans (V_main_arg0 m c))),
      ((h c).1 3).trans (((dats m 0 c).arrAt_in 3 rfl _).trans ((A_eq m c 3).trans (V_main_arg1 m c))),
      ((h c).1 1).trans (((dats m 0 c).arrAt_in 1 rfl _).trans ((A_eq m c 1).trans (V_main_arg2 m c))),
      ((h c).2 main_arg3 (Pipeline.mem_restRefs_of main_arg3 (by decide) (by decide))).trans (V_main_arg3 m c)⟩) (run_main m ρ)

end Cert.Kernel.Hand

end
-- ==== Proof.GcnBlocks.lean ====
/-
  Where the blocks of the graph-convolution kernel's six windows sit in their arrays, at each of the 25 grid points.

  The features, the weights and the bias row are each one block, the whole array, at every point. The two adjacency
  windows read the same [10000, 10000] array in blocks of 200 rows: at point t the first reads block row 2 t, rows
  400 t … 400 t + 199, the second block row 2 t + 1, rows 400 t + 200 … 400 t + 399. The result is written in blocks of
  400 rows: point t writes rows 400 t … 400 t + 399, so a row r of the result belongs to exactly the point r / 400, and
  the 25 blocks cover all 10000 rows. The bias row the region finds is the bias vector reshaped to [1, 128]: its entry
  (0, d) is the vector's entry d.

  An element of a block sits in the array, on each axis, at block index × block size + 1 × its coordinate inside the
  block; the block indices are decided once over the 25 points.
-/
import proofs.«162349_g5188320494189_cont_8to1_c_158_11_alg».proof.Proof.FrameBaseKernelIdeal
import Idealize.ShloMosaic.Lib.Pipeline.Value
import Idealize.ShloMosaic.Lib.StableHlo.Run
import Idealize.ShloMosaic.Lib.ValueIdx
import Idealize.ShloMosaic.Lib.ValueLayout

noncomputable section

namespace Gcn

open Cert.KernelIdeal Cert.KernelIdeal.Gen Cert.KernelIdeal.Hand
open Idealize.ShloMosaic Idealize.ShloMosaic.TcCoe Idealize.ShloMosaic.ValueIdx Idealize.SL.Sem

variable {F : FTy → Type} [FloatOps F]
variable (m : (ℓ : Loc nD τ sig) → Buf (Elt F) ℓ)

/-! ## The block indices at a point -/

/-- The six windows' block indices at point t: (0, 0) for the three whole-array windows, (2 t, 0) and (2 t + 1, 0)
    for the two adjacency windows, (t, 0) for the result. -/
theorem index_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 2 * t.val ∧ win0_3.index t (1 : Fin 2) = 0
    ∧ win0_4.index t (0 : Fin 2) = 2 * t.val + 1 ∧ win0_4.index t (1 : Fin 2) = 0
    ∧ win0_5.index t (0 : Fin 2) = t.val ∧ win0_5.index t (1 : Fin 2) = 0 :=
  (by decide +kernel : ∀ t : Fin grid0.N, _)

/-- There are 25 points. -/
theorem point_lt (t : Fin cfg0.N) : t.val < 25 := by
  have hN : cfg0.N = 25 := N_0
  have := t.isLt
  omega

/-- For a row p of a 200-row block, 400 t + p is one of the array's 10000 rows (the first adjacency block's row). -/
theorem row_lt (t : Fin cfg0.N) (p : Fin 200) : 400 * t.val + p.val < 10000 := by
  have := point_lt t; have := p.isLt; omega

/-- For a row p of a 200-row block, 400 t + 200 + p is one of the array's 10000 rows (the second adjacency block's row). -/
theorem row_lt' (t : Fin cfg0.N) (p : Fin 200) : 400 * t.val + 200 + p.val < 10000 := by
  have := point_lt t; have := p.isLt; omega

/-- For a row p of a 400-row block, 400 t + p is one of the array's 10000 rows (the result block's row). -/
theorem resultRow_lt (t : Fin cfg0.N) (p : Fin 400) : 400 * t.val + p.val < 10000 := by
  have := point_lt t; have := p.isLt; omega

/-! ## The three whole-array windows -/

/-- The features' block at every point is the whole array. -/
theorem iblk0_eq (c : Dev nD) (t : Fin cfg0.N) :
    (iblk m c 0 t : S10000x128.Idx → Elt F .f32) = (V m c main_arg0 : S10000x128.Idx → Elt F .f32) := by
  obtain ⟨e0, e1, -⟩ := index_facts t
  funext y
  unfold iblk
  rw [View.read_apply]
  show V m c main_arg0 _ = V m c main_arg0 y
  congr 1
  funext a
  apply Fin.ext
  match a with
  | ⟨0, _⟩ => show win0_0.index t (0 : Fin 2) * 10000 + 1 * (y 0).val = (y 0).val; rw [e0]; omega
  | ⟨1, _⟩ => show win0_0.index t (1 : Fin 2) * 128 + 1 * (y 1).val = (y 1).val; rw [e1]; omega

/-- The weights' block at every point is the whole array. -/
theorem iblk1_eq (c : Dev nD) (t : Fin cfg0.N) :
    (iblk m c 1 t : S128x128.Idx → Elt F .f32) = (V m c main_arg2 : S128x128.Idx → Elt F .f32) := by
  obtain ⟨-, -, e0, e1, -⟩ := index_facts t
  funext y
  unfold iblk
  rw [View.read_apply]
  show V m c main_arg2 _ = V m c main_arg2 y
  congr 1
  funext a
  apply Fin.ext
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega

/-- The bias row's block at every point is the whole row. -/
theorem iblk2_eq (c : Dev nD) (t : Fin cfg0.N) :
    (iblk m c 2 t : S1x128.Idx → Elt F .f32) = (V m c main_call0_v0 : S1x128.Idx → Elt F .f32) := by
  obtain ⟨-, -, -, -, e0, e1, -⟩ := index_facts t
  funext y
  unfold iblk
  rw [View.read_apply]
  show V m c main_call0_v0 _ = V m c main_call0_v0 y
  congr 1
  funext a
  apply Fin.ext
  match a with
  | ⟨0, _⟩ => show win0_2.index t (0 : Fin 2) * 1 + 1 * (y 0).val = (y 0).val; rw [e0]; omega
  | ⟨1, _⟩ => show win0_2.index t (1 : Fin 2) * 128 + 1 * (y 1).val = (y 1).val; rw [e1]; omega

/-! ## The two adjacency windows -/

/-- The first adjacency block at point t, at (p, k), is the adjacency at (400 t + p, k). -/
theorem iblk3_apply (c : Dev nD) (t : Fin cfg0.N) (p : Fin 200) (k : Fin 10000) :
    (iblk m c 3 t : S200x10000.Idx → Elt F .f32) (ix2 p k)
      = (V m c main_arg1 : S10000x10000.Idx → Elt F .f32) (ix2 (⟨400 * t.val + p.val, row_lt t p⟩ : Fin 10000) k) := by
  obtain ⟨-, -, -, -, -, -, e0, e1, -⟩ := index_facts t
  unfold iblk
  rw [View.read_apply]
  show V m c main_arg1 _ = V m c main_arg1 _
  congr 1
  funext a
  apply Fin.ext
  match a with
  | ⟨0, _⟩ => show win0_3.index t (0 : Fin 2) * 200 + 1 * p.val = 400 * t.val + p.val; rw [e0]; omega
  | ⟨1, _⟩ => show win0_3.index t (1 : Fin 2) * 10000 + 1 * k.val = k.val; rw [e1]; omega

/-- The second adjacency block at point t, at (p, k), is the adjacency at (400 t + 200 + p, k). -/
theorem iblk4_apply (c : Dev nD) (t : Fin cfg0.N) (p : Fin 200) (k : Fin 10000) :
    (iblk m c 4 t : S200x10000.Idx → Elt F .f32) (ix2 p k)
      = (V m c main_arg1 : S10000x10000.Idx → Elt F .f32) (ix2 (⟨400 * t.val + 200 + p.val, row_lt' t p⟩ : Fin 10000) k) := by
  obtain ⟨-, -, -, -, -, -, -, -, e0, e1, -⟩ := index_facts t
  unfold iblk
  rw [View.read_apply]
  show V m c main_arg1 _ = V m c main_arg1 _
  congr 1
  funext a
  apply Fin.ext
  match a with
  | ⟨0, _⟩ => show win0_4.index t (0 : Fin 2) * 200 + 1 * p.val = 400 * t.val + 200 + p.val; rw [e0]; omega
  | ⟨1, _⟩ => show win0_4.index t (1 : Fin 2) * 10000 + 1 * k.val = k.val; rw [e1]; omega

/-! ## The bias row the region finds -/

/-- The bias row is the bias vector reshaped to one row. -/
theorem biasRow_eq (c : Dev nD) :
    (V m c main_call0_v0 : S1x128.Idx → Elt F .f32)
      = shapeCast S1x128 (m ((c : Thread nD τ).loc main_arg3) : S128.Idx → Elt F .f32) shapeCasts_S128_S1x128 := by
  dsimp only [V, hostOps0]
  after_results
  rfl

/-- Its entry (0, d) is the bias vector's entry d. -/
theorem biasRow_apply (c : Dev nD) (d : Fin 128) :
    (V m c main_call0_v0 : S1x128.Idx → Elt F .f32) (ix2 (0 : Fin 1) d)
      = (m ((c : Thread nD τ).loc main_arg3) : S128.Idx → Elt F .f32) (ix1 d) := by
  rw [biasRow_eq]
  exact shapeCast_a_1a_apply _ _ (0 : Fin 1) d

/-! ## The result window: where block t sits, and that the 25 blocks cover the array -/

/-- The result block at point t, at (p, d), sits in the array at (400 t + p, d). -/
theorem result_emb (t : Fin cfg0.N) (p : Fin 400) (d : Fin 128) :
    (((cfg0.win 5).blk t).view.emb (ix2 p d : S400x128.Idx) : S10000x128.Idx)
      = ix2 (⟨400 * t.val + p.val, resultRow_lt t p⟩ : Fin 10000) d := by
  obtain ⟨-, -, -, -, -, -, -, -, -, -, e0, e1⟩ := index_facts t
  funext a
  apply Fin.ext
  match a with
  | ⟨0, _⟩ => show win0_5.index t (0 : Fin 2) * 400 + 1 * p.val = 400 * t.val + p.val; rw [e0]; omega
  | ⟨1, _⟩ => show win0_5.index t (1 : Fin 2) * 128 + 1 * d.val = d.val; rw [e1]; omega

/-- The same at a block index not yet split into its coordinates. -/
theorem result_emb_idx (t : Fin cfg0.N) (y : S400x128.Idx) :
    (((cfg0.win 5).blk t).view.emb y : S10000x128.Idx)
      = ix2 (⟨400 * t.val + (y 0).val, resultRow_lt t (y 0)⟩ : Fin 10000) (y 1 : Fin 128) :=
  (congrArg ((cfg0.win 5).blk t).view.emb (eq_ix2 y)).trans (result_emb t (y 0) (y 1))

/-- An index of the result array is in point t's block iff its row is one of rows 400 t … 400 t + 399. -/
theorem mem_resultBlk (t : Fin cfg0.N) (i : S10000x128.Idx) :
    i ∈ ((cfg0.win 5).blk t).view.set ↔ (i 0).val / 400 = t.val := by
  obtain ⟨-, -, -, -, -, -, -, -, -, -, e0, e1⟩ := index_facts t
  have h1 : (i 1).val < 128 := (i 1).isLt
  show i ∈ ((View.whole main_v0).slice (win0_5.rect t)).set ↔ _
  rw [View.set_slice_whole, Rect.mem_set_unit]
  constructor
  · intro h
    have b0 : win0_5.index t (0 : Fin 2) * 400 ≤ (i 0).val ∧ (i 0).val < win0_5.index t (0 : Fin 2) * 400 + 400 := h 0
    omega
  · intro h a
    match a with
    | ⟨0, _⟩ => show win0_5.index t (0 : Fin 2) * 400 ≤ (i 0).val ∧ (i 0).val < win0_5.index t (0 : Fin 2) * 400 + 400; omega
    | ⟨1, _⟩ => show win0_5.index t (1 : Fin 2) * 128 ≤ (i 1).val ∧ (i 1).val < win0_5.index t (1 : Fin 2) * 128 + 128; omega

/-- Every index of the result array is in the block of a point that writes back: the point (row / 400). -/
theorem result_cover (i : S10000x128.Idx) :
    ∃ t : Fin cfg0.N, (cfg0.win 5).flush t = true ∧ i ∈ ((cfg0.win 5).blk t).view.set := by
  have h0 : (i 0).val < 10000 := (i 0).isLt
  have hN : cfg0.N = 25 := N_0
  refine ⟨⟨(i 0).val / 400, by omega⟩, flush0_5 _, ?_⟩
  rw [mem_resultBlk]

end Gcn

end
-- ==== Proof.GcnContents.lean ====
/-
  What the region's body leaves, named by the body's arithmetic. The first point's store into the scratch leaves the
  product X · Wᵀ as the body computes it from the two blocks it loaded; each point's two stores into the result's staging
  buffer leave, on rows 0 … 199, the first adjacency block times the scratch plus the bias row, and on rows 200 … 399 the
  second adjacency block times the scratch plus the bias row. So after every point the scratch holds the product computed
  at the first point from the whole X and W, and the result's buffer holds the two half-blocks computed from it.
-/
import proofs.«162349_g5188320494189_cont_8to1_c_158_11_alg».proof.Proof.FrameLaunchKernelIdeal
import proofs.«162349_g5188320494189_cont_8to1_c_158_11_alg».proof.Proof.GcnBlocks
import Idealize.ShloMosaic.Lib.Pipeline.Value

-- membership in a rectangle of these extents is decided structurally, one step per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The offsets of a rectangle that starts at the origin. -/
theorem origin2 : (![0, 0] : Fin 2 → Nat) = fun _ => 0 := funext fun a => by fin_cases a <;> rfl

/-- The result block a point stores, from the bias row, the point's two adjacency blocks and the scratch contents: the
    second half-block laid over the first. -/
def resultBlock (x2 : Vec F S1x128 .f32) (x3 x4 : Vec F S200x10000 .f32) (s : Vec F S10000x128 .f32) : Vec F S400x128 .f32 :=
  View.canon [(⟨Rect.unit (s := S400x128) ![200, 0] S200x128.size inb_S400x128_S200x128_200_0, k0_pay3 x4 s x2⟩ : View.Piece (Elt F) S400x128 .f32),
    (⟨Rect.unit (s := S400x128) ![0, 0] S200x128.size inb_S400x128_S200x128_0_0, k0_pay2 x3 s x2⟩ : View.Piece (Elt F) S400x128 .f32)]

/-- The first point leaves in the scratch the product of the two blocks it loaded. -/
theorem sout0_A_0_eq (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S400x128 .f32) (harg6 : arg6.IsWhole) (arg7 : Memref sig .tc .vmem S10000x128 .f32) (harg7 : arg7.IsWhole) (hc0 : cond0_0 i) (x0 : Vec F S10000x128 .f32) (x1 : Vec F S128x128 .f32) (x2 : Vec F S1x128 .f32) (x3 : Vec F S200x10000 .f32) (x4 : Vec F S200x10000 .f32) :
    sout0_A_0 c i arg1 harg1 arg2 harg2 arg3 harg3 arg4 harg4 arg5 harg5 arg6 harg6 arg7 harg7 hc0 x0 x1 x2 x3 x4 = k0_pay1 x0 x1 := by
  unfold sout0_A_0
  rw [View.read_writes_eq_canon _ _ _ (scover0_A_0 c i arg1 harg1 arg2 harg2 arg3 harg3 arg4 harg4 arg5 harg5 arg6 harg6 arg7 harg7 hc0 x0 x1 x2 x3 x4)]
  unfold kernelRun0_A
  dsimp only
  sl_unfold_words
  rw [View.canon_unit_zero origin2]
  simp only [View.readAt_eq_ld, harg1.read_unread, harg2.read_unread, View.ld_unit_zero (S := S10000x128) origin2,
    View.ld_unit_zero (S := S128x128) origin2]

/-- The first point leaves in the result's buffer the block computed from the product it has just stored. -/
theorem out0_A_5_eq (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S400x128 .f32) (harg6 : arg6.IsWhole) (arg7 : Memref sig .tc .vmem S10000x128 .f32) (harg7 : arg7.IsWhole) (hc0 : cond0_0 i) (x0 : Vec F S10000x128 .f32) (x1 : Vec F S128x128 .f32) (x2 : Vec F S1x128 .f32) (x3 : Vec F S200x10000 .f32) (x4 : Vec F S200x10000 .f32) :
    out0_A_5 c i arg1 harg1 arg2 harg2 arg3 harg3 arg4 harg4 arg5 harg5 arg6 harg6 arg7 harg7 hc0 x0 x1 x2 x3 x4 = resultBlock x2 x3 x4 (k0_pay1 x0 x1) := by
  unfold out0_A_5
  rw [View.read_writes_eq_canon _ _ _ (cover0_A_5 c i arg1 harg1 arg2 harg2 arg3 harg3 arg4 harg4 arg5 harg5 arg6 harg6 arg7 harg7 hc0 x0 x1 x2 x3 x4)]
  unfold kernelRun0_A
  dsimp only
  sl_unfold_words
  rw [View.readCov_unit_zero _ origin2]
  simp only [View.readAt_eq_ld, harg1.read_unread, harg2.read_unread, harg3.read_unread, harg4.read_unread, harg5.read_unread,
    View.ld_unit_zero (S := S10000x128) origin2, View.ld_unit_zero (S := S128x128) origin2, View.ld_unit_zero (S := S1x128) origin2,
    View.ld_unit_zero (S := S200x10000) origin2]
  rfl

/-- A later point leaves in the result's buffer the block computed from the scratch as it found it. -/
theorem out0_B_5_eq (c : Dev nD) (i : grid0.Coords) (arg1 : Memref sig .tc .vmem S10000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S200x10000 .f32) (harg4 : arg4.IsWhole) (arg5 : Memref sig .tc .vmem S200x10000 .f32) (harg5 : arg5.IsWhole) (arg6 : Memref sig .tc .vmem S400x128 .f32) (harg6 : arg6.IsWhole) (arg7 : Memref sig .tc .vmem S10000x128 .f32) (harg7 : arg7.IsWhole) (hc0 : ¬cond0_0 i) (x0 : Vec F S10000x128 .f32) (x1 : Vec F S128x128 .f32) (x2 : Vec F S1x128 .f32) (x3 : Vec F S200x10000 .f32) (x4 : Vec F S200x10000 .f32) (xs0 : Vec F S10000x128 .f32) :
    out0_B_5 c i arg1 harg1 arg2 harg2 arg3 harg3 arg4 harg4 arg5 harg5 arg6 harg6 arg7 harg7 hc0 x0 x1 x2 x3 x4 xs0 = resultBlock x2 x3 x4 xs0 := by
  unfold out0_B_5
  rw [View.read_writes_eq_canon _ _ _ (cover0_B_5 c i arg1 harg1 arg2 harg2 arg3 harg3 arg4 harg4 arg5 harg5 arg6 harg6 arg7 harg7 hc0 x0 x1 x2 x3 x4 xs0)]
  unfold kernelRun0_B
  dsimp only
  sl_unfold_words
  simp only [View.readAt_eq_ld, harg3.read_unread, harg4.read_unread, harg5.read_unread, harg7.read_unread,
    View.ld_unit_zero (S := S10000x128) origin2, View.ld_unit_zero (S := S1x128) origin2,
    View.ld_unit_zero (S := S200x10000) origin2]
  rfl

end Cert.KernelIdeal.Hand

end
-- ==== Proof.LibPlainDot.lean ====
/-
  A plain matrix product's dimension numbers — the left operand's axis 1 contracted with the right operand's axis 0, no batch
  axis — read at an index. For such a record the left operand is read at (row, k) and the right at (k, column), so at the
  extended reals a product into the zero accumulator is the sum over k of x(row, k) · w(k, column), in any order and grouping
  (addition of extended reals is commutative and associative). Nothing here depends on a program: the record's four
  coordinate facts are hypotheses, which each use site proves from its own record by unfolding.
-/
import Idealize.ShloMosaic.Lib.ValueIdx
import Idealize.ShloMosaic.PureOps.Ideal.Laws

noncomputable section

namespace PlainDot

open Idealize.ShloMosaic Idealize.ShloMosaic.ValueIdx

/-- The dimension numbers `D` are those of a plain [M, K] × [K, N] product: one contracted axis of extent K; the left
    operand read at (row of the result, contraction position) and the right at (contraction position, column). -/
structure IsPlain {M K N : Nat} (D : DotDims ⟨2, ![M, K]⟩ ⟨2, ![K, N]⟩ ⟨2, ![M, N]⟩) : Prop where
  rank : D.contr.rank = 1
  size : D.contr.size ⟨0, by omega⟩ = K
  lhs0 : ∀ (i : (⟨2, ![M, N]⟩ : Shape).Idx) (q : D.contr.Idx), (D.lhsIdx i q 0).val = (i 0).val
  lhs1 : ∀ (i : (⟨2, ![M, N]⟩ : Shape).Idx) (q : D.contr.Idx), (D.lhsIdx i q 1).val = (q ⟨0, by omega⟩).val
  rhs0 : ∀ (i : (⟨2, ![M, N]⟩ : Shape).Idx) (q : D.contr.Idx), (D.rhsIdx i q 0).val = (q ⟨0, by omega⟩).val
  rhs1 : ∀ (i : (⟨2, ![M, N]⟩ : Shape).Idx) (q : D.contr.Idx), (D.rhsIdx i q 1).val = (i 1).val

variable {M K N : Nat} {φ₁ φ₂ : FTy}

/-- The two operand indices at result index (r, j) and contraction position k. -/
theorem IsPlain.lhsIdx_eq {D : DotDims ⟨2, ![M, K]⟩ ⟨2, ![K, N]⟩ ⟨2, ![M, N]⟩} (h : IsPlain D) (r : Fin M) (j : Fin N) (k : Fin K) :
    D.lhsIdx (ix2 r j) ((contrEquiv1 D K h.rank h.size).symm k) = ix2 r k :=
  funext fun a => Fin.ext (by
    match a with
    | ⟨0, _⟩ => exact h.lhs0 _ _
    | ⟨1, _⟩ => exact (h.lhs1 _ _).trans (contrEquiv1_symm_val D K h.rank h.size k))

theorem IsPlain.rhsIdx_eq {D : DotDims ⟨2, ![M, K]⟩ ⟨2, ![K, N]⟩ ⟨2, ![M, N]⟩} (h : IsPlain D) (r : Fin M) (j : Fin N) (k : Fin K) :
    D.rhsIdx (ix2 r j) ((contrEquiv1 D K h.rank h.size).symm k) = ix2 k j :=
  funext fun a => Fin.ext (by
    match a with
    | ⟨0, _⟩ => exact (h.rhs0 _ _).trans (contrEquiv1_symm_val D K h.rank h.size k)
    | ⟨1, _⟩ => exact h.rhs1 _ _)

/-- A matrix product into the zero accumulator, at the extended reals, read at (r, j): the sum over the contracted
    axis of x(r, k) · w(k, j). -/
theorem matmul_zero_apply (D : DotDims ⟨2, ![M, K]⟩ ⟨2, ![K, N]⟩ ⟨2, ![M, N]⟩) (h : IsPlain D) (prec : Option ContractPrecision)
    (x : FVec Ideal ⟨2, ![M, K]⟩ φ₁) (w : FVec Ideal ⟨2, ![K, N]⟩ φ₂) (r : Fin M) (j : Fin N) :
    FloatOps.matmul D prec x w (constant (F := Ideal) ⟨2, ![M, N]⟩ .f32 0x00000000#32) (ix2 r j)
      = ∑ k : Fin K, x (ix2 r k) * w (ix2 k j) := by
  rw [Ideal.matmul_constant_zero_apply, ← Equiv.sum_comp (contrEquiv1 D K h.rank h.size).symm]
  refine Finset.sum_congr rfl fun k _ => ?_
  rw [h.lhsIdx_eq r j k, h.rhsIdx_eq r j k]

end PlainDot

end
-- ==== Proof.GcnSpec.lean ====
/-
  The graph-convolution layer as ONE function of its four arrays, entry by entry, on the extended reals
  (every operation exact):

    support(k, d) = sum over j of X(k, j) · W(d, j)                  -- the features times the weight matrix read by rows, X · Wᵀ
    layer(r, d)   = (sum over k of A(r, k) · support(k, d)) + b(d)   -- aggregation over all nodes, plus the bias

  X is [10000, 128] (node features), A is [10000, 10000] (the dense adjacency), W is [128, 128] (row d holds the weights
  of output feature d) and b is [128]. Both sums run over the whole range of their index, in the index's order.
  Nothing here depends on a program: the shapes are literal, and an index is built from its coordinates.
-/
import Idealize.ShloMosaic.PureOps.Ideal
import Idealize.ShloMosaic.Lib.ValueIdx

noncomputable section

open scoped BigOperators

namespace Gcn

open Idealize.ShloMosaic Idealize.ShloMosaic.ValueIdx

/-- The transformed features X · Wᵀ: entry (k, d) is the inner product of row k of X with row d of W. -/
def support (X : FVec Ideal ⟨2, ![10000, 128]⟩ .f32) (W : FVec Ideal ⟨2, ![128, 128]⟩ .f32) :
    FVec Ideal ⟨2, ![10000, 128]⟩ .f32 :=
  fun i => ∑ j : Fin 128, X (ix2 (i 0 : Fin 10000) j) * W (ix2 (i 1 : Fin 128) j)

/-- The transformed features at (k, d). -/
theorem support_apply (X : FVec Ideal ⟨2, ![10000, 128]⟩ .f32) (W : FVec Ideal ⟨2, ![128, 128]⟩ .f32)
    (k : Fin 10000) (d : Fin 128) :
    support X W (ix2 k d) = ∑ j : Fin 128, X (ix2 k j) * W (ix2 d j) := rfl

/-- The layer A · (X · Wᵀ) + b: entry (r, d) aggregates column d of the transformed features with the weights of
    row r of A, and adds the bias of output feature d. -/
def layer (X : FVec Ideal ⟨2, ![10000, 128]⟩ .f32) (A : FVec Ideal ⟨2, ![10000, 10000]⟩ .f32)
    (W : FVec Ideal ⟨2, ![128, 128]⟩ .f32) (b : FVec Ideal ⟨1, ![128]⟩ .f32) :
    FVec Ideal ⟨2, ![10000, 128]⟩ .f32 :=
  fun i => (∑ k : Fin 10000, A (ix2 (i 0 : Fin 10000) k) * support X W (ix2 k (i 1 : Fin 128))) + b (ix1 (i 1 : Fin 128))

/-- The layer at (r, d). -/
theorem layer_apply (X : FVec Ideal ⟨2, ![10000, 128]⟩ .f32) (A : FVec Ideal ⟨2, ![10000, 10000]⟩ .f32)
    (W : FVec Ideal ⟨2, ![128, 128]⟩ .f32) (b : FVec Ideal ⟨1, ![128]⟩ .f32) (r : Fin 10000) (d : Fin 128) :
    layer X A W b (ix2 r d) = (∑ k : Fin 10000, A (ix2 r k) * support X W (ix2 k d)) + b (ix1 d) := rfl

end Gcn

end
-- ==== Proof.GcnPayloads.lean ====
/-
  The arithmetic of the kernel's body, entry by entry, on the extended reals.

  The body computes three values. On the first grid step only, the transformed features: the product of the features
  with the transposed weight matrix into a zero accumulator, which is X · Wᵀ. On every step, two tiles of the
  result, one for each of the step's two blocks of 200 rows of the adjacency: the product of the block with the
  transformed features into a zero accumulator, plus the bias row repeated down the tile's 200 rows.

  A product with plain dimension numbers (the left operand's axis 1 contracted with the right operand's axis 0) into
  the zero accumulator is, at (r, j), the sum over k of left(r, k) · right(k, j); the remaining operations (a cast of a
  shape to itself, a transpose, a row repeated, an entrywise sum) each read one entry of their operand.
-/
import proofs.«162349_g5188320494189_cont_8to1_c_158_11_alg».proof.Proof.Gen.KernelIdeal.Skeleton
import proofs.«162349_g5188320494189_cont_8to1_c_158_11_alg».proof.Proof.LibPlainDot
import proofs.«162349_g5188320494189_cont_8to1_c_158_11_alg».proof.Proof.GcnSpec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Gcn

open Idealize.ShloMosaic Idealize.ShloMosaic.ValueIdx Cert.KernelIdeal Cert.KernelIdeal.Gen

/-! ## The two products' dimension numbers are plain -/

/-- The dimension numbers of the feature product [10000, 128] × [128, 128]: the left operand is read at
    (row, contraction position), the right at (contraction position, column). -/
theorem featureDot_isPlain [Facts₀] : PlainDot.IsPlain dot_S10000x128_S128x128_S10000x128_1_0_0_1_n_n where
  rank := rfl
  size := rfl
  lhs0 := fun i q => by
    unfold DotDims.lhsIdx
    rw [dif_neg (show ¬(0 : Fin S10000x128.rank) ∈ dot_S10000x128_S128x128_S10000x128_1_0_0_1_n_n.lhsBatch from List.not_mem_nil),
      dif_pos (show (0 : Fin S10000x128.rank) ∈ dot_S10000x128_S128x128_S10000x128_1_0_0_1_n_n.lhsNonContracting from List.mem_singleton.mpr rfl)]
    rfl
  lhs1 := fun i q => dot_S10000x128_S128x128_S10000x128_1_0_0_1_n_n.lhsIdx_val_of_single rfl i q
  rhs0 := fun i q => dot_S10000x128_S128x128_S10000x128_1_0_0_1_n_n.rhsIdx_val_of_single rfl i q
  rhs1 := fun i q => by
    unfold DotDims.rhsIdx
    rw [dif_neg (show ¬(1 : Fin S128x128.rank) ∈ dot_S10000x128_S128x128_S10000x128_1_0_0_1_n_n.rhsBatch from List.not_mem_nil),
      dif_pos (show (1 : Fin S128x128.rank) ∈ dot_S10000x128_S128x128_S10000x128_1_0_0_1_n_n.rhsNonContracting from List.mem_singleton.mpr rfl)]
    rfl

/-- The dimension numbers of the aggregation product [200, 10000] × [10000, 128], likewise. -/
theorem aggregationDot_isPlain [Facts₀] : PlainDot.IsPlain dot_S200x10000_S10000x128_S200x128_1_0_0_1_n_n where
  rank := rfl
  size := rfl
  lhs0 := fun i q => by
    unfold DotDims.lhsIdx
    rw [dif_neg (show ¬(0 : Fin S200x10000.rank) ∈ dot_S200x10000_S10000x128_S200x128_1_0_0_1_n_n.lhsBatch from List.not_mem_nil),
      dif_pos (show (0 : Fin S200x10000.rank) ∈ dot_S200x10000_S10000x128_S200x128_1_0_0_1_n_n.lhsNonContracting from List.mem_singleton.mpr rfl)]
    rfl
  lhs1 := fun i q => dot_S200x10000_S10000x128_S200x128_1_0_0_1_n_n.lhsIdx_val_of_single rfl i q
  rhs0 := fun i q => dot_S200x10000_S10000x128_S200x128_1_0_0_1_n_n.rhsIdx_val_of_single rfl i q
  rhs1 := fun i q => by
    unfold DotDims.rhsIdx
    rw [dif_neg (show ¬(1 : Fin S10000x128.rank) ∈ dot_S200x10000_S10000x128_S200x128_1_0_0_1_n_n.rhsBatch from List.not_mem_nil),
      dif_pos (show (1 : Fin S10000x128.rank) ∈ dot_S200x10000_S10000x128_S200x128_1_0_0_1_n_n.rhsNonContracting from List.mem_singleton.mpr rfl)]
    rfl

/-! ## The first step's value: the transformed features -/

/-- The value the first grid step keeps for all later steps is X · Wᵀ. -/
theorem pay1_eq_support (X : Vec Ideal S10000x128 .f32) (W : Vec Ideal S128x128 .f32) :
    k0_pay1 (F := Ideal) X W = support X W := by
  funext i
  obtain ⟨k, d, rfl⟩ : ∃ (k : Fin 10000) (d : Fin 128), i = ix2 k d := ⟨i 0, i 1, eq_ix2 i⟩
  unfold k0_pay1
  rw [shapeCast_self, support_apply]
  refine (PlainDot.matmul_zero_apply dot_S10000x128_S128x128_S10000x128_1_0_0_1_n_n featureDot_isPlain none X _ k d).trans ?_
  refine Finset.sum_congr rfl fun j _ => ?_
  rw [transpose_ix2_apply]

/-! ## Every step's two tiles -/

/-- A tile of the result at (p, d): row p of the adjacency block against column d of the transformed features, plus
    the bias of output feature d. -/
theorem pay2_apply (a : Vec Ideal S200x10000 .f32) (s : Vec Ideal S10000x128 .f32) (b : Vec Ideal S1x128 .f32)
    (p : Fin 200) (d : Fin 128) :
    k0_pay2 (F := Ideal) a s b (ix2 p d) = (∑ k : Fin 10000, a (ix2 p k) * s (ix2 k d)) + b (ix2 (0 : Fin 1) d) := by
  unfold k0_pay2
  rw [addf_apply, shapeCast_self, broadcastTo_1b_ab_apply]
  exact congrArg (· + b (ix2 (0 : Fin 1) d))
    (PlainDot.matmul_zero_apply dot_S200x10000_S10000x128_S200x128_1_0_0_1_n_n aggregationDot_isPlain none a s p d)

/-- The step's second tile, the same arithmetic on the second block of rows. -/
theorem pay3_apply (a : Vec Ideal S200x10000 .f32) (s : Vec Ideal S10000x128 .f32) (b : Vec Ideal S1x128 .f32)
    (p : Fin 200) (d : Fin 128) :
    k0_pay3 (F := Ideal) a s b (ix2 p d) = (∑ k : Fin 10000, a (ix2 p k) * s (ix2 k d)) + b (ix2 (0 : Fin 1) d) := by
  unfold k0_pay3
  rw [addf_apply, shapeCast_self, broadcastTo_1b_ab_apply]
  exact congrArg (· + b (ix2 (0 : Fin 1) d))
    (PlainDot.matmul_zero_apply dot_S200x10000_S10000x128_S200x128_1_0_0_1_n_n aggregationDot_isPlain none a s p d)

end Gcn

end
-- ==== Proof.GcnRows.lean ====
/-
  The rows of the result, one block at a time.

  The block a grid point stores has 400 rows: rows 0 … 199 hold the first adjacency block times the kept product plus the
  bias row, rows 200 … 399 the second adjacency block times the kept product plus the bias row (the second half is laid
  over the first; the two halves do not meet). The kept product is X · Wᵀ, the first adjacency block at point t is rows
  400 t … 400 t + 199 of the adjacency and the second is rows 400 t + 200 … 400 t + 399, and the bias row's entry (0, d) is
  the bias at d. So row p of point t's block is row 400 t + p of the layer adj · (X · Wᵀ) + bias: for p < 200 through the
  first half, and for p = 200 + q through the second, where 400 t + 200 + q = 400 t + p.
-/
import proofs.«162349_g5188320494189_cont_8to1_c_158_11_alg».proof.Proof.GcnContents
import proofs.«162349_g5188320494189_cont_8to1_c_158_11_alg».proof.Proof.GcnBlocks
import proofs.«162349_g5188320494189_cont_8to1_c_158_11_alg».proof.Proof.GcnPayloads
import proofs.«162349_g5188320494189_cont_8to1_c_158_11_alg».proof.Proof.GcnSpec
import Idealize.ShloMosaic.Lib.Pipeline.Value
import Idealize.ShloMosaic.Lib.ValueIdx

noncomputable section

open scoped BigOperators

namespace Gcn

open Cert.KernelIdeal Cert.KernelIdeal.Gen Cert.KernelIdeal.Hand
open Idealize.ShloMosaic Idealize.ShloMosaic.TcCoe Idealize.ShloMosaic.ValueIdx Idealize.SL.Sem

/-! ## The stored block read at a row of each half -/

section AnyInstance
variable {F : FTy → Type} [FloatOps F]

/-- A row of the first 200 is one of the block's 400 rows. -/
theorem topRow_lt (p : Fin 200) : p.val < 400 := by have := p.isLt; omega

/-- A row of the first 200, moved down by 200, is one of the block's 400 rows. -/
theorem bottomRow_lt (p : Fin 200) : 200 + p.val < 400 := by have := p.isLt; omega

/-- On rows 0 … 199 the stored block is the first tile: those rows are outside the second tile's rectangle (rows
    200 … 399), which was laid last, and inside the first's. -/
theorem resultBlock_top (x2 : Vec F S1x128 .f32) (x3 x4 : Vec F S200x10000 .f32) (s : Vec F S10000x128 .f32)
    (p : Fin 200) (d : Fin 128) :
    resultBlock x2 x3 x4 s (ix2 (⟨p.val, topRow_lt p⟩ : Fin 400) d) = k0_pay2 x3 s x2 (ix2 p d) := by
  have hp : p.val < 200 := p.isLt
  have hout : (ix2 (⟨p.val, topRow_lt p⟩ : Fin 400) d : S400x128.Idx)
      ∉ (Rect.unit (s := S400x128) ![200, 0] S200x128.size inb_S400x128_S200x128_200_0).set := by
    intro h
    rw [Rect.mem_set_unit] at h
    have b0 : 200 ≤ p.val ∧ p.val < 200 + 200 := h 0
    omega
  have hin : (ix2 (⟨p.val, topRow_lt p⟩ : Fin 400) d : S400x128.Idx)
      = (Rect.unit (s := S400x128) ![0, 0] S200x128.size inb_S400x128_S200x128_0_0).emb (ix2 p d) := by
    funext a
    apply Fin.ext
    match a with
    | ⟨0, _⟩ => show p.val = 0 + 1 * p.val; omega
    | ⟨1, _⟩ => show d.val = 0 + 1 * d.val; omega
  unfold resultBlock
  refine (View.canon_cons_of_not_mem
    (⟨Rect.unit (s := S400x128) ![200, 0] S200x128.size inb_S400x128_S200x128_200_0, k0_pay3 x4 s x2⟩ : View.Piece (Elt F) S400x128 .f32)
    _ hout).trans ?_
  rw [hin]
  exact View.canon_cons_emb (Val := Elt F) (e := .f32)
    (Rect.unit (s := S400x128) ![0, 0] S200x128.size inb_S400x128_S200x128_0_0) (k0_pay2 x3 s x2) [] (ix2 p d)

/-- On rows 200 … 399 the stored block is the second tile, which was laid last. -/
theorem resultBlock_bottom (x2 : Vec F S1x128 .f32) (x3 x4 : Vec F S200x10000 .f32) (s : Vec F S10000x128 .f32)
    (p : Fin 200) (d : Fin 128) :
    resultBlock x2 x3 x4 s (ix2 (⟨200 + p.val, bottomRow_lt p⟩ : Fin 400) d) = k0_pay3 x4 s x2 (ix2 p d) := by
  have hin : (ix2 (⟨200 + p.val, bottomRow_lt p⟩ : Fin 400) d : S400x128.Idx)
      = (Rect.unit (s := S400x128) ![200, 0] S200x128.size inb_S400x128_S200x128_200_0).emb (ix2 p d) := by
    funext a
    apply Fin.ext
    match a with
    | ⟨0, _⟩ => show 200 + p.val = 200 + 1 * p.val; omega
    | ⟨1, _⟩ => show d.val = 0 + 1 * d.val; omega
  unfold resultBlock
  rw [hin]
  exact View.canon_cons_emb (Val := Elt F) (e := .f32)
    (Rect.unit (s := S400x128) ![200, 0] S200x128.size inb_S400x128_S200x128_200_0) (k0_pay3 x4 s x2) _ (ix2 p d)

end AnyInstance

/-! ## A tile is 200 rows of the layer -/

/-- A block of 200 rows of the adjacency (row p of the block being row r p of the array) times X · Wᵀ, plus a row that
    holds the bias, is the layer on those rows. -/
theorem tile_eq_layer (X : Vec Ideal S10000x128 .f32) (A : Vec Ideal S10000x10000 .f32) (W : Vec Ideal S128x128 .f32)
    (b : Vec Ideal S128 .f32) (a : Vec Ideal S200x10000 .f32) (x2 : Vec Ideal S1x128 .f32) (r : Fin 200 → Fin 10000)
    (ha : ∀ (p : Fin 200) (k : Fin 10000), a (ix2 p k) = A (ix2 (r p) k))
    (hb : ∀ d : Fin 128, x2 (ix2 (0 : Fin 1) d) = b (ix1 d)) (p : Fin 200) (d : Fin 128) :
    (∑ k : Fin 10000, a (ix2 p k) * support X W (ix2 k d)) + x2 (ix2 (0 : Fin 1) d) = layer X A W b (ix2 (r p) d) := by
  rw [layer_apply, hb]
  refine congrArg (· + b (ix1 d)) (Finset.sum_congr rfl fun k _ => ?_)
  rw [ha]

/-- Rows 0 … 199 of the stored block, when the scratch holds the product the first point computes from X and W. -/
theorem resultBlock_top_eq_layer (X : Vec Ideal S10000x128 .f32) (A : Vec Ideal S10000x10000 .f32)
    (W : Vec Ideal S128x128 .f32) (b : Vec Ideal S128 .f32) (x2 : Vec Ideal S1x128 .f32) (x3 x4 : Vec Ideal S200x10000 .f32)
    (r : Fin 200 → Fin 10000) (ha : ∀ (p : Fin 200) (k : Fin 10000), x3 (ix2 p k) = A (ix2 (r p) k))
    (hb : ∀ d : Fin 128, x2 (ix2 (0 : Fin 1) d) = b (ix1 d)) (p : Fin 200) (d : Fin 128) :
    resultBlock x2 x3 x4 (k0_pay1 (F := Ideal) X W) (ix2 (⟨p.val, topRow_lt p⟩ : Fin 400) d) = layer X A W b (ix2 (r p) d) := by
  rw [resultBlock_top, pay2_apply, pay1_eq_support]
  exact tile_eq_layer X A W b x3 x2 r ha hb p d

/-- Rows 200 … 399 of the stored block, likewise. -/
theorem resultBlock_bottom_eq_layer (X : Vec Ideal S10000x128 .f32) (A : Vec Ideal S10000x10000 .f32)
    (W : Vec Ideal S128x128 .f32) (b : Vec Ideal S128 .f32) (x2 : Vec Ideal S1x128 .f32) (x3 x4 : Vec Ideal S200x10000 .f32)
    (r : Fin 200 → Fin 10000) (ha : ∀ (p : Fin 200) (k : Fin 10000), x4 (ix2 p k) = A (ix2 (r p) k))
    (hb : ∀ d : Fin 128, x2 (ix2 (0 : Fin 1) d) = b (ix1 d)) (p : Fin 200) (d : Fin 128) :
    resultBlock x2 x3 x4 (k0_pay1 (F := Ideal) X W) (ix2 (⟨200 + p.val, bottomRow_lt p⟩ : Fin 400) d) = layer X A W b (ix2 (r p) d) := by
  rw [resultBlock_bottom, pay3_apply, pay1_eq_support]
  exact tile_eq_layer X A W b x4 x2 r ha hb p d

/-! ## The row law -/

/-- Row p of the block point t stores is row 400 t + p of the layer of the arrays the region finds. -/
theorem resultBlock_eq_layer (m : (ℓ : Loc nD τ sig) → Buf (Elt Ideal) ℓ) (c : Dev nD) (t : Fin cfg0.N) (p : Fin 400) (d : Fin 128) :
    resultBlock (iblk m c 2 t) (iblk m c 3 t) (iblk m c 4 t) (k0_pay1 (F := Ideal) (V m c main_arg0) (V m c main_arg2)) (ix2 p d)
      = layer (V m c main_arg0) (V m c main_arg1) (V m c main_arg2) (m ((c : Thread nD τ).loc main_arg3))
          (ix2 (⟨400 * t.val + p.val, resultRow_lt t p⟩ : Fin 10000) d) := by
  have hb : ∀ d : Fin 128, (iblk m c 2 t : S1x128.Idx → Elt Ideal .f32) (ix2 (0 : Fin 1) d)
      = (m ((c : Thread nD τ).loc main_arg3) : S128.Idx → Elt Ideal .f32) (ix1 d) :=
    fun d => (congrFun (iblk2_eq m c t) (ix2 (0 : Fin 1) d)).trans (biasRow_apply m c d)
  by_cases hp : p.val < 200
  · exact resultBlock_top_eq_layer (V m c main_arg0) (V m c main_arg1) (V m c main_arg2) (m ((c : Thread nD τ).loc main_arg3))
      (iblk m c 2 t) (iblk m c 3 t) (iblk m c 4 t) (fun q => ⟨400 * t.val + q.val, row_lt t q⟩)
      (fun q k => iblk3_apply m c t q k) hb ⟨p.val, hp⟩ d
  · have hlt : p.val < 400 := p.isLt
    obtain ⟨q, rfl⟩ : ∃ q : Fin 200, p = ⟨200 + q.val, bottomRow_lt q⟩ :=
      ⟨⟨p.val - 200, by omega⟩, Fin.ext (by show p.val = 200 + (p.val - 200); omega)⟩
    refine (resultBlock_bottom_eq_layer (V m c main_arg0) (V m c main_arg1) (V m c main_arg2) (m ((c : Thread nD τ).loc main_arg3))
      (iblk m c 2 t) (iblk m c 3 t) (iblk m c 4 t) (fun q => ⟨400 * t.val + 200 + q.val, row_lt' t q⟩)
      (fun q k => iblk4_apply m c t q k) hb q d).trans ?_
    refine congrArg (fun r : Fin 10000 => layer (V m c main_arg0) (V m c main_arg1) (V m c main_arg2)
      (m ((c : Thread nD τ).loc main_arg3)) (ix2 r d)) (Fin.ext ?_)
    show 400 * t.val + 200 + q.val = 400 * t.val + (200 + q.val)
    omega

end Gcn

end
-- ==== Proof.GcnValue.lean ====
/-
  The kernel's result array after the run, at the extended reals: the graph-convolution layer of the argument arrays.

  After every point the scratch holds the product X · Wᵀ of the whole arrays, and the block a point stores is computed
  from it and from the point's two adjacency blocks; row by row that block is rows 400 t … 400 t + 399 of the layer
  adj · (X · Wᵀ) + bias. The 25 blocks tile the result array, so it ends holding the layer.
-/
import proofs.«162349_g5188320494189_cont_8to1_c_158_11_alg».proof.Proof.GcnContents
import proofs.«162349_g5188320494189_cont_8to1_c_158_11_alg».proof.Proof.GcnRows

-- membership in a rectangle of these extents is decided structurally, one step per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- After every point the scratch holds the product computed at the first point from the whole X and W. -/
theorem scratch_at (c : Dev nD) : ∀ (n : ℕ) (hn : n < cfg0.N),
    (outsAt0 m c n hn).2 = k0_pay1 (V m c main_arg0 : S10000x128.Idx → Elt F .f32) (V m c main_arg2 : S128x128.Idx → Elt F .f32)
  | 0, hn => by
    rw [outsAt0_A m c ⟨0, hn⟩ rfl]
    dsimp only
    rw [sout0_A_0_eq, Gcn.iblk0_eq, Gcn.iblk1_eq]
  | n + 1, hn => by
    rw [outsAt0_B m c ⟨n + 1, hn⟩ (Nat.succ_ne_zero n)]
    dsimp only
    exact scratch_at c n _

/-- After point `t` the result's staging buffer holds the block computed from that product and the point's blocks. -/
theorem block_at (c : Dev nD) (t : Fin cfg0.N) :
    (outsAt0 m c t.val t.isLt).1
      = resultBlock (iblk m c 2 t) (iblk m c 3 t) (iblk m c 4 t)
          (k0_pay1 (V m c main_arg0 : S10000x128.Idx → Elt F .f32) (V m c main_arg2 : S128x128.Idx → Elt F .f32)) := by
  by_cases h0 : t.val = 0
  · rw [outsAt0_A m c t h0]
    dsimp only
    rw [out0_A_5_eq, Gcn.iblk0_eq, Gcn.iblk1_eq]
  · rw [outsAt0_B m c t h0]
    dsimp only
    rw [out0_B_5_eq, scratch_at]

/-! ## At the extended reals -/

/-- What point `t` writes back is rows 400 t … 400 t + 399 of the layer of the arrays the region finds. -/
theorem flushed_eq (mi : (ℓ : Loc nD τ sig) → Buf (Elt Ideal) ℓ) (c : Dev nD) (t : Fin cfg0.N) :
    (dats mi 0 c).flushed 5 t
      = ((cfg0.win 5).blk t).view.read (Elt Ideal)
          (Gcn.layer (V mi c main_arg0) (V mi c main_arg1) (V mi c main_arg2) (mi ((c : Thread nD τ).loc main_arg3))) := by
  show (cfg0.win 5).cut (grid0.coords t) ((dats mi 0 c).after 5 t) = _
  rw [after0_5, block_at]
  refine funext fun (y : S400x128.Idx) => ?_
  show resultBlock (iblk mi c 2 t) (iblk mi c 3 t) (iblk mi c 4 t)
      (k0_pay1 (F := Ideal) (V mi c main_arg0) (V mi c main_arg2)) y
    = Gcn.layer (V mi c main_arg0) (V mi c main_arg1) (V mi c main_arg2) (mi ((c : Thread nD τ).loc main_arg3))
        (((cfg0.win 5).blk t).view.emb y)
  obtain ⟨p, d, rfl⟩ : ∃ (p : Fin 400) (d : Fin 128), y = ValueIdx.ix2 p d := ⟨y 0, y 1, ValueIdx.eq_ix2 y⟩
  rw [Gcn.result_emb]
  exact Gcn.resultBlock_eq_layer mi c t p d

/-- The 25 blocks tile the result array: after the run it holds the layer of the argument arrays. -/
theorem final (mi : (ℓ : Loc nD τ sig) → Buf (Elt Ideal) ℓ) (c : Dev nD) :
    (dats mi 0 c).arrAt 5 cfg0.N
      = Gcn.layer (mi ((c : Thread nD τ).loc main_arg0)) (mi ((c : Thread nD τ).loc main_arg1))
          (mi ((c : Thread nD τ).loc main_arg2)) (mi ((c : Thread nD τ).loc main_arg3)) := by
  rw [(dats mi 0 c).arrAt_eq_of_cover 5 _ (fun t _ => flushed_eq mi c t) Gcn.result_cover, V_main_arg0, V_main_arg1, V_main_arg2]

/-- The kernel's run at the extended reals: the result array ends at the layer of the argument arrays, which end
    unchanged. -/
theorem run_value (mi : (ℓ : Loc nD τ sig) → Buf (Elt Ideal) ℓ) (ρ : Dev nD → PrngReg) :
    θ_run defs (onTc (τ := τ) (main (F := Ideal))) ⟨mi, fun _ => 0, ρ⟩ (fun r => ∀ c : Dev nD,
      r.2.mem ((c.tc : Thread nD τ).loc main_v0)
          = Gcn.layer (mi ((c.tc : Thread nD τ).loc main_arg0)) (mi ((c.tc : Thread nD τ).loc main_arg1))
              (mi ((c.tc : Thread nD τ).loc main_arg2)) (mi ((c.tc : Thread nD τ).loc main_arg3))
      ∧ r.2.mem ((c.tc : Thread nD τ).loc main_arg0) = mi ((c.tc : Thread nD τ).loc main_arg0)
      ∧ r.2.mem ((c.tc : Thread nD τ).loc main_arg1) = mi ((c.tc : Thread nD τ).loc main_arg1)
      ∧ r.2.mem ((c.tc : Thread nD τ).loc main_arg2) = mi ((c.tc : Thread nD τ).loc main_arg2)
      ∧ r.2.mem ((c.tc : Thread nD τ).loc main_arg3) = mi ((c.tc : Thread nD τ).loc main_arg3)) :=
  (θ_run defs _ _).mono (fun _ h c =>
    ⟨((h c).1 5).trans (final mi c),
      ((h c).1 0).trans (((dats mi 0 c).arrAt_in 0 rfl _).trans ((A_eq mi c 0).trans (V_main_arg0 mi c))),
      ((h c).1 3).trans (((dats mi 0 c).arrAt_in 3 rfl _).trans ((A_eq mi c 3).trans (V_main_arg1 mi c))),
      ((h c).1 1).trans (((dats mi 0 c).arrAt_in 1 rfl _).trans ((A_eq mi c 1).trans (V_main_arg2 mi c))),
      ((h c).2 main_arg3 (Pipeline.mem_restRefs_of main_arg3 (by decide) (by decide))).trans (V_main_arg3 mi c)⟩) (run_main mi ρ)

end Cert.KernelIdeal.Hand

end
-- ==== Proof.LibPlainDotGeneral.lean ====
/-
  The host program's matrix product with plain dimension numbers — the left operand's axis 1 contracted with the right
  operand's axis 0, no batch axis — read at an index, at the extended reals: entry (r, j) is the sum over k of
  x(r, k) · w(k, j). The host's product has no accumulator, so this is the tile product's reading (a product into the
  zero accumulator) without the zero. Nothing here depends on a program: the record's coordinate facts are the
  hypothesis `IsPlain`, which each use site proves from its own record by unfolding.
-/
import proofs.«162349_g5188320494189_cont_8to1_c_158_11_alg».proof.Proof.LibPlainDot

noncomputable section

namespace PlainDot

open Idealize.ShloMosaic Idealize.ShloMosaic.ValueIdx

variable {M K N : Nat} {φ₁ φ₂ : FTy}

/-- The host's matrix product, at the extended reals, read at (r, j): the sum over the contracted axis of
    x(r, k) · w(k, j). -/
theorem dotGeneral_apply (D : DotDims ⟨2, ![M, K]⟩ ⟨2, ![K, N]⟩ ⟨2, ![M, N]⟩) (h : IsPlain D) (prec : Option ContractPrecision)
    (x : FVec Ideal ⟨2, ![M, K]⟩ φ₁) (w : FVec Ideal ⟨2, ![K, N]⟩ φ₂) (r : Fin M) (j : Fin N) :
    Host.dotGeneral (F := Ideal) D prec x w (ix2 r j) = ∑ k : Fin K, x (ix2 r k) * w (ix2 k j) := by
  simp only [Host.dotGeneral]
  rw [Ideal.dotGeneral_apply, ← Equiv.sum_comp (contrEquiv1 D K h.rank h.size).symm]
  refine Finset.sum_congr rfl fun k _ => ?_
  rw [h.lhsIdx_eq r j k, h.rhsIdx_eq r j k]

end PlainDot

end
-- ==== Proof.GcnReference.lean ====
/-
  The reference program's result, read index by index: the graph-convolution layer
  out(r, d) = (sum over k of adj(r, k) * (sum over j of X(k, j) * W(d, j))) + bias(d)
  on the extended reals.

  The reference computes it in six stages: the weight matrix transposed; the features times that transpose; the adjacency
  times the product; the bias laid out as one row, then repeated down the 10000 rows; and the sum of the two. Each stage is
  read at an index from the stage before. The two sums run over the same ranges in the same order as the layer's, so no
  law of addition is needed: only the operand indices have to be recognised as (r, k), (k, d), (k, j), (d, j) and (d).
-/
import proofs.«162349_g5188320494189_cont_8to1_c_158_11_alg».proof.Proof.Gen.ReferenceIdeal.Run
import proofs.«162349_g5188320494189_cont_8to1_c_158_11_alg».proof.Proof.Gen.ReferenceIdeal.Read
import proofs.«162349_g5188320494189_cont_8to1_c_158_11_alg».proof.Proof.LibPlainDot
import proofs.«162349_g5188320494189_cont_8to1_c_158_11_alg».proof.Proof.LibPlainDotGeneral
import proofs.«162349_g5188320494189_cont_8to1_c_158_11_alg».proof.Proof.GcnSpec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Gcn

open Idealize.ShloMosaic Idealize.ShloMosaic.ValueIdx Cert.ReferenceIdeal Cert.ReferenceIdeal.Read

/-! ## The operand indices of each stage, by coordinates -/

/-- The transposed weight matrix at (j, d) reads the weight matrix at (d, j). -/
theorem transposeIdx_eq (j d : Fin 128) : idx_main_v0 (ix2 j d) = ix2 d j :=
  funext fun a => Fin.ext (by match a with | ⟨0, _⟩ => rfl | ⟨1, _⟩ => rfl)

/-- The feature product at (k, d), contraction position j, reads the features at (k, j) … -/
theorem supportLhsIdx_eq (k : Fin 10000) (d j : Fin 128) : lidx_main_v1 (ix2 k d) j = ix2 k j :=
  funext fun a => Fin.ext (by match a with | ⟨0, _⟩ => rfl | ⟨1, _⟩ => rfl)

/-- … and the transposed weight matrix at (j, d). -/
theorem supportRhsIdx_eq (k : Fin 10000) (d j : Fin 128) : ridx_main_v1 (ix2 k d) j = ix2 j d :=
  funext fun a => Fin.ext (by match a with | ⟨0, _⟩ => rfl | ⟨1, _⟩ => rfl)

/-- The aggregation at (r, d), contraction position k, reads the adjacency at (r, k) … -/
theorem aggLhsIdx_eq (r : Fin 10000) (d : Fin 128) (k : Fin 10000) : lidx_main_v2 (ix2 r d) k = ix2 r k :=
  funext fun a => Fin.ext (by match a with | ⟨0, _⟩ => rfl | ⟨1, _⟩ => rfl)

/-- … and the transformed features at (k, d). -/
theorem aggRhsIdx_eq (r : Fin 10000) (d : Fin 128) (k : Fin 10000) : ridx_main_v2 (ix2 r d) k = ix2 k d :=
  funext fun a => Fin.ext (by match a with | ⟨0, _⟩ => rfl | ⟨1, _⟩ => rfl)

/-- The bias repeated down the rows, at (r, d), reads the bias at d (through its one-row layout). -/
theorem biasIdx_eq (r : Fin 10000) (d : Fin 128) : idx_main_v3 (idx_main_v4 (ix2 r d)) = ix1 d :=
  funext fun a => Fin.ext (by match a with | ⟨0, _⟩ => rfl)

/-! ## The stages -/

/-- The reference's feature product is the transformed features X · Wᵀ, entry by entry. -/
theorem reference_support_apply (x0 : (⟨S10000x128, .f32⟩ : BufTy).Contents (Elt Ideal))
    (x2 : (⟨S128x128, .f32⟩ : BufTy).Contents (Elt Ideal)) (k : Fin 10000) (d : Fin 128) :
    val_main_v1 (F := Ideal) x0 x2 (ix2 k d) = support x0 x2 (ix2 k d) := by
  rw [val_main_v1_apply, support_apply]
  refine Finset.sum_congr rfl fun j _ => ?_
  rw [val_main_v0_apply, supportLhsIdx_eq, supportRhsIdx_eq, transposeIdx_eq]

/-- The reference's result is the layer: adj · (X · Wᵀ) + bias, entry by entry. -/
theorem reference_eq_layer (x0 : (⟨S10000x128, .f32⟩ : BufTy).Contents (Elt Ideal))
    (x1 : (⟨S10000x10000, .f32⟩ : BufTy).Contents (Elt Ideal))
    (x2 : (⟨S128x128, .f32⟩ : BufTy).Contents (Elt Ideal))
    (x3 : (⟨S128, .f32⟩ : BufTy).Contents (Elt Ideal)) :
    val_main_v5 (F := Ideal) x0 x1 x2 x3 = layer x0 x1 x2 x3 := by
  funext i
  obtain ⟨r, d, rfl⟩ : ∃ (r : Fin 10000) (d : Fin 128), i = ix2 r d := ⟨i 0, i 1, eq_ix2 i⟩
  rw [val_main_v5_apply, val_main_v2_apply, val_main_v4_apply, val_main_v3_apply, layer_apply, Ideal.addf_def,
    biasIdx_eq]
  refine congrArg (· + x3 (ix1 d)) (Finset.sum_congr rfl fun k _ => ?_)
  rw [aggLhsIdx_eq, aggRhsIdx_eq, reference_support_apply]

end Gcn

end
-- ==== Proof.lean ====
/-
  The certificate of the graph-convolution kernel against its reference: out = adj · (X · Wᵀ) + bias, with
  X : [10000, 128], adj : [10000, 10000], W : [128, 128], bias : [128].

  The kernel runs over a grid of 25 points. At each point it reads two consecutive blocks of 200 rows of adj (two windows
  on the one array), multiplies each by the product X · Wᵀ, which it computes once at the first point and keeps in a
  scratch buffer, adds the bias row, and stores the 400 rows of the result. The reference computes the same two products
  and the same sum on the whole arrays. On the extended reals both are, entry by entry,
      out(r, d) = (sum over k of adj(r, k) · (sum over j of X(k, j) · W(d, j))) + bias(d),
  the sums taken over the same index sets in the same arrangement, so no algebraic law beyond reading each matrix product
  as its sum is needed, and the precondition (finite inputs) is never opened.

  The three frames: the two kernel programs (the printed one at the word level and its idealization) by the launch of
  their one region, the adjacency array's full share split between the two windows that read it; the reference by its run.
  The idealization rewrote no operation, so there is nothing to preserve. The value claim joins the kernel's run, whose
  result array is read block by block and row by row, with the reference's run read operation by operation.
-/
import proofs.«162349_g5188320494189_cont_8to1_c_158_11_alg».proof.Defs
import proofs.«162349_g5188320494189_cont_8to1_c_158_11_alg».proof.Proof.Gen.Kernel
import proofs.«162349_g5188320494189_cont_8to1_c_158_11_alg».proof.Proof.Gen.KernelIdeal
import proofs.«162349_g5188320494189_cont_8to1_c_158_11_alg».proof.Proof.Gen.ReferenceIdeal
import proofs.«162349_g5188320494189_cont_8to1_c_158_11_alg».proof.Proof.Gen.Pre_finite_inputs
import proofs.«162349_g5188320494189_cont_8to1_c_158_11_alg».proof.Proof.Gen.ReferenceIdeal.Run
import proofs.«162349_g5188320494189_cont_8to1_c_158_11_alg».proof.Proof.Gen.ReferenceIdeal.Read
import proofs.«162349_g5188320494189_cont_8to1_c_158_11_alg».proof.Proof.FrameLaunchKernel
import proofs.«162349_g5188320494189_cont_8to1_c_158_11_alg».proof.Proof.FrameLaunchKernelIdeal
import proofs.«162349_g5188320494189_cont_8to1_c_158_11_alg».proof.Proof.GcnValue
import proofs.«162349_g5188320494189_cont_8to1_c_158_11_alg».proof.Proof.GcnReference
import Idealize.ShloMosaic.Adequacy
import Idealize.ShloMosaic.Init

noncomputable section

namespace Cert.Proof

open Idealize.ShloMosaic Idealize.ShloMosaic.TcCoe Idealize.SL.Sem

/-- The printed kernel runs to the end, faults nowhere, and leaves its four argument arrays unchanged. -/
theorem frame_kernel : Cert.frame_Kernel := fun m ρ _ => Cert.Kernel.Hand.frame m ρ

/-- So does its idealization. -/
theorem frame_kernelIdeal : Cert.frame_KernelIdeal := fun m ρ _ => Cert.KernelIdeal.Hand.frame m ρ

/-- So does the reference: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the extended reals the kernel's result array and the reference's both end at the layer of the argument arrays,
    which agree. -/
theorem algebraic : Cert.algebraic_KernelIdeal_ReferenceIdeal := by
  intro m ρ m' ρ' _ hagree
  refine ⟨_, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Gcn.reference_eq_layer, (hagree c).1, (hagree c).2.1, (hagree c).2.2.1,
    (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
